-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x128 : Shape := ⟨3, ![64, 32, 128]⟩
abbrev S2x64x256x128 : Shape := ⟨4, ![2, 64, 256, 128]⟩
abbrev S2x64x256 : Shape := ⟨3, ![2, 64, 256]⟩
abbrev S64x2 : Shape := ⟨2, ![64, 2]⟩
abbrev S_ : Shape := ⟨0, ![]⟩

class Facts : Prop where
  bcast_S_S64x32x128 : S_.BroadcastsInDim S64x32x128 (![] : Fin 0 → Fin S64x32x128.rank)
  reducesTo_S64x32x128_S_d0_1_2 : S64x32x128.ReducesTo [0, 1, 2] S_
  h_S_ : 0 < S_.numel
  bcast_S_S2x64x256x128 : S_.BroadcastsInDim S2x64x256x128 (![] : Fin 0 → Fin S2x64x256x128.rank)
  reducesTo_S2x64x256x128_S_d0_1_2_3 : S2x64x256x128.ReducesTo [0, 1, 2, 3] S_
  bcast_S_S64x2 : S_.BroadcastsInDim S64x2 (![] : Fin 0 → Fin S64x2.rank)
  reducesTo_S64x2_S_d0_1 : S64x2.ReducesTo [0, 1] S_

variable [Facts]

def fn {F : FTy → Type} [FloatOps F] (main_arg0 : FVec F S64x32x128 .f32) (main_arg1 : FVec F S2x64x256x128 .f32) (main_arg2 : IVec S2x64x256 32) (main_arg3 : FVec F S64x2 .f32) : IVec S_ 1 :=
  let main_v0 : FVec F S64x32x128 .f32 := Host.absf main_arg0
  let main_cst : FVec F S_ .f32 := constant S_ .f32 0x7F800000#32
  let main_v1 : FVec F S64x32x128 .f32 := broadcastInDim S64x32x128 ![] bcast_S_S64x32x128 main_cst
  let main_v2 : IVec S64x32x128 1 := cmpf .olt main_v0 main_v1
  let main_c : IVec S_ 1 := constantI S_ 1 1#1
  let main_v3 : IVec S_ 1 := (fun x v => Host.reduce IntOp.andi x v reducesTo_S64x32x128_S_d0_1_2 h_S_) main_v2 main_c
  let main_v4 : FVec F S2x64x256x128 .f32 := Host.absf main_arg1
  let main_cst_0 : FVec F S_ .f32 := constant S_ .f32 0x7F800000#32
  let main_v5 : FVec F S2x64x256x128 .f32 := broadcastInDim S2x64x256x128 ![] bcast_S_S2x64x256x128 main_cst_0
  let main_v6 : IVec S2x64x256x128 1 := cmpf .olt main_v4 main_v5
  let main_c_1 : IVec S_ 1 := constantI S_ 1 1#1
  let main_v7 : IVec S_ 1 := (fun x v => Host.reduce IntOp.andi x v reducesTo_S2x64x256x128_S_d0_1_2_3 h_S_) main_v6 main_c_1
  let main_v8 : IVec S_ 1 := andi main_v3 main_v7
  let main_v9 : FVec F S64x2 .f32 := Host.absf main_arg3
  let main_cst_2 : FVec F S_ .f32 := constant S_ .f32 0x7F800000#32
  let main_v10 : FVec F S64x2 .f32 := broadcastInDim S64x2 ![] bcast_S_S64x2 main_cst_2
  let main_v11 : IVec S64x2 1 := cmpf .olt main_v9 main_v10
  let main_c_3 : IVec S_ 1 := constantI S_ 1 1#1
  let main_v12 : IVec S_ 1 := (fun x v => Host.reduce IntOp.andi x v reducesTo_S64x2_S_d0_1 h_S_) main_v11 main_c_3
  let main_v13 : IVec S_ 1 := andi main_v8 main_v12
  main_v13
-- ==== Kernel.lean ====
abbrev S64x32x128 : Shape := ⟨3, ![64, 32, 128]⟩
abbrev S2x64x256x128 : Shape := ⟨4, ![2, 64, 256, 128]⟩
abbrev S2x64x256 : Shape := ⟨3, ![2, 64, 256]⟩
abbrev S64x2 : Shape := ⟨2, ![64, 2]⟩
abbrev S2x64x64 : Shape := ⟨3, ![2, 64, 64]⟩
abbrev S8x32x128 : Shape := ⟨3, ![8, 32, 128]⟩
abbrev S1x64x256x128 : Shape := ⟨4, ![1, 64, 256, 128]⟩
abbrev S1x64x256 : Shape := ⟨3, ![1, 64, 256]⟩
abbrev S1x8x64 : Shape := ⟨3, ![1, 8, 64]⟩
abbrev S8x32 : Shape := ⟨2, ![8, 32]⟩
abbrev S8x32x1 : Shape := ⟨3, ![8, 32, 1]⟩
abbrev S256x128 : Shape := ⟨2, ![256, 128]⟩
abbrev S64x256x128 : Shape := ⟨3, ![64, 256, 128]⟩
abbrev S64x256 : Shape := ⟨2, ![64, 256]⟩
abbrev S64x256x1 : Shape := ⟨3, ![64, 256, 1]⟩
abbrev S64x128 : Shape := ⟨2, ![64, 128]⟩
abbrev S64x1x128 : Shape := ⟨3, ![64, 1, 128]⟩
abbrev S16x256x128 : Shape := ⟨3, ![16, 256, 128]⟩
abbrev S4096x128 : Shape := ⟨2, ![4096, 128]⟩
abbrev S128x4096 : Shape := ⟨2, ![128, 4096]⟩
abbrev S256x4096 : Shape := ⟨2, ![256, 4096]⟩
abbrev S256x16x256 : Shape := ⟨3, ![256, 16, 256]⟩
abbrev S256x16 : Shape := ⟨2, ![256, 16]⟩
abbrev S256x16x1 : Shape := ⟨3, ![256, 16, 1]⟩
abbrev S8x32x16 : Shape := ⟨3, ![8, 32, 16]⟩
abbrev S8x16 : Shape := ⟨2, ![8, 16]⟩
abbrev S1x8x16 : Shape := ⟨3, ![1, 8, 16]⟩
abbrev S64 : Shape := ⟨1, ![64]⟩
abbrev S_ : Shape := ⟨0, ![]⟩
abbrev S64x1 : Shape := ⟨2, ![64, 1]⟩
abbrev S2x64 : Shape := ⟨2, ![2, 64]⟩
abbrev S64x2x64 : Shape := ⟨3, ![64, 2, 64]⟩

abbrev nBuf : Space → Nat
  | .hbm => 90
  | .vmem => 8
  | .smem => 0
  | _ => 0

abbrev bufTy : (tb : Table) → Fin (tcTables nBuf tb) → BufTy
  | .hbm, ⟨0, _⟩ => ⟨S64x32x128, .f32⟩
  | .hbm, ⟨1, _⟩ => ⟨S2x64x256x128, .f32⟩
  | .hbm, ⟨2, _⟩ => ⟨S2x64x256, .i32⟩
  | .hbm, ⟨3, _⟩ => ⟨S64x2, .f32⟩
  | .hbm, ⟨4, _⟩ => ⟨S2x64x64, .f32⟩
  | .hbm, ⟨5, _⟩ => ⟨S64, .i32⟩
  | .hbm, ⟨6, _⟩ => ⟨S_, .i32⟩
  | .hbm, ⟨7, _⟩ => ⟨S64, .i32⟩
  | .hbm, ⟨8, _⟩ => ⟨S64, .i1⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S_, .i32⟩
  | .hbm, ⟨17, _⟩ => ⟨S64, .i32⟩
  | .hbm, ⟨18, _⟩ => ⟨S64, .i32⟩
  | .hbm, ⟨19, _⟩ => ⟨S64, .i32⟩
  | .hbm, ⟨20, _⟩ => ⟨S64x1, .i32⟩
  | .hbm, ⟨21, _⟩ => ⟨S64x1, .i32⟩
  | .hbm, ⟨22, _⟩ => ⟨S64x2, .i32⟩
  | .hbm, ⟨23, _⟩ => ⟨S2x64, .f32⟩
  | .hbm, ⟨24, _⟩ => ⟨S64x2, .f32⟩
  | .hbm, ⟨25, _⟩ => ⟨S_, .f32⟩
  | .hbm, ⟨26, _⟩ => ⟨S64, .f32⟩
  | .hbm, ⟨27, _⟩ => ⟨S_, .f32⟩
  | .hbm, ⟨28, _⟩ => ⟨S64, .f32⟩
  | .hbm, ⟨29, _⟩ => ⟨S64, .f32⟩
  | .hbm, ⟨30, _⟩ => ⟨S64x1, .f32⟩
  | .hbm, ⟨31, _⟩ => ⟨S64x2, .f32⟩
  | .hbm, ⟨32, _⟩ => ⟨S64x2, .f32⟩
  | .hbm, ⟨33, _⟩ => ⟨S64x2, .f32⟩
  | .hbm, ⟨34, _⟩ => ⟨S_, .f32⟩
  | .hbm, ⟨35, _⟩ => ⟨S64, .f32⟩
  | .hbm, ⟨36, _⟩ => ⟨S64x1, .f32⟩
  | .hbm, ⟨37, _⟩ => ⟨S64x1, .f32⟩
  | .hbm, ⟨38, _⟩ => ⟨S64x2, .f32⟩
  | .hbm, ⟨39, _⟩ => ⟨S64x2, .f32⟩
  | .hbm, ⟨40, _⟩ => ⟨S64x2, .f32⟩
  | .hbm, ⟨41, _⟩ => ⟨S64x2, .f32⟩
  | .hbm, ⟨42, _⟩ => ⟨S64x2, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S64x2x64, .f32⟩
  | .hbm, ⟨48, _⟩ => ⟨S64x128, .f32⟩
  | .hbm, ⟨49, _⟩ => ⟨S_, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S64x1, .f32⟩
  | .hbm, ⟨55, _⟩ => ⟨S64x128, .f32⟩
  | .hbm, ⟨56, _⟩ => ⟨S64x128, .f32⟩
  | .hbm, ⟨57, _⟩ => ⟨S64x128, .f32⟩
  | .hbm, ⟨58, _⟩ => ⟨S_, .f32⟩
  | .hbm, ⟨59, _⟩ => ⟨S64, .f32⟩
  | .hbm, ⟨60, _⟩ => ⟨S64x1, .f32⟩
  | .hbm, ⟨61, _⟩ => ⟨S64x1, .f32⟩
  | .hbm, ⟨62, _⟩ => ⟨S64x128, .f32⟩
  | .hbm, ⟨63, _⟩ => ⟨S64x128, .f32⟩
  | .hbm, ⟨64, _⟩ => ⟨S_, .i32⟩
  | .hbm, ⟨65, _⟩ => ⟨S64, .i32⟩
  | .hbm, ⟨66, _⟩ => ⟨S64, .i1⟩
  | .hbm, ⟨67, _⟩ => ⟨S_, .i32⟩
  | .hbm, ⟨68, _⟩ => ⟨S64, .i32⟩
  | .hbm, ⟨69, _⟩ => ⟨S64, .i32⟩
  | .hbm, ⟨70, _⟩ => ⟨S64, .i32⟩
  | .hbm, ⟨71, _⟩ => ⟨S_, .i32⟩
  | .hbm, ⟨72, _⟩ => ⟨S64, .i32⟩
  | .hbm, ⟨73, _⟩ => ⟨S64, .i1⟩
  | .hbm, ⟨74, _⟩ => ⟨S_, .i32⟩
  | .hbm, ⟨75, _⟩ => ⟨S64, .i32⟩
  | .hbm, ⟨76, _⟩ => ⟨S64, .i32⟩
  | .hbm, ⟨77, _⟩ => ⟨S64, .i32⟩
  | .hbm, ⟨78, _⟩ => ⟨S64x1, .i32⟩
  | .hbm, ⟨79, _⟩ => ⟨S64x1, .i32⟩
  | .hbm, ⟨80, _⟩ => ⟨S64x2, .i32⟩
  | .hbm, ⟨81, _⟩ => ⟨S64, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .local _ .vmem, ⟨0, _⟩ => ⟨S8x32x128, .f32⟩
  | .local _ .vmem, ⟨1, _⟩ => ⟨S8x32x128, .f32⟩
  | .local _ .vmem, ⟨2, _⟩ => ⟨S1x64x256x128, .f32⟩
  | .local _ .vmem, ⟨3, _⟩ => ⟨S1x64x256x128, .f32⟩
  | .local _ .vmem, ⟨4, _⟩ => ⟨S1x64x256, .i32⟩
  | .local _ .vmem, ⟨5, _⟩ => ⟨S1x64x256, .i32⟩
  | .local _ .vmem, ⟨6, _⟩ => ⟨S1x8x64, .f32⟩
  | .local _ .vmem, ⟨7, _⟩ => ⟨S1x8x64, .f32⟩
  | _, _ => ⟨S64x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_cst : Ref sig .tc := ⟨.hbm, 25, rfl⟩
abbrev main_call0_v0 : Ref sig .tc := ⟨.hbm, 26, rfl⟩
abbrev main_call0_cst_0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_cst_1 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst : Ref sig .tc := ⟨.hbm, 43, rfl⟩
abbrev main_v21 : Ref sig .tc := ⟨.hbm, 44, rfl⟩
abbrev main_cst_3 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_call1_cst : Ref sig .tc := ⟨.hbm, 49, rfl⟩
abbrev main_call1_v0 : Ref sig .tc := ⟨.hbm, 50, rfl⟩
abbrev main_call1_cst_0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_cst_1 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_v25 : Ref sig .tc := ⟨.hbm, 63, rfl⟩
abbrev main_c_4 : Ref sig .tc := ⟨.hbm, 64, rfl⟩
abbrev main_v26 : Ref sig .tc := ⟨.hbm, 65, rfl⟩
abbrev main_v27 : Ref sig .tc := ⟨.hbm, 66, rfl⟩
abbrev main_c_5 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_c_6 : Ref sig .tc := ⟨.hbm, 71, rfl⟩
abbrev main_v31 : Ref sig .tc := ⟨.hbm, 72, rfl⟩
abbrev main_v32 : Ref sig .tc := ⟨.hbm, 73, rfl⟩
abbrev main_c_7 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_cst_8 : Ref sig .tc := ⟨.hbm, 82, rfl⟩
abbrev main_v40 : Ref sig .tc := ⟨.hbm, 83, rfl⟩
abbrev main_cst_9 : Ref sig .tc := ⟨.hbm, 84, rfl⟩
abbrev main_v41 : Ref sig .tc := ⟨.hbm, 85, rfl⟩
abbrev main_v42 : Ref sig .tc := ⟨.hbm, 86, rfl⟩
abbrev main_cst_10 : Ref sig .tc := ⟨.hbm, 87, rfl⟩
abbrev main_v43 : Ref sig .tc := ⟨.hbm, 88, rfl⟩
abbrev main_v44 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x64x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x64x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S8x32x128_S8x32x128_0_0_0 : ∀ a, (![0, 0, 0] : Fin 3 → Nat) a + S8x32x128.size a ≤ S8x32x128.size a
  h_S8x32x128 : 0 < S8x32x128.numel
  reduces_S8x32x128_S8x32 : S8x32x128.Reduces [2] S8x32
  shapeCasts_S8x32_S8x32x1 : S8x32.ShapeCasts S8x32x1
  broadcasts_S8x32x1_S8x32x128 : S8x32x1.Broadcasts S8x32x128
  shapeCasts_S8x32x128_S256x128 : S8x32x128.ShapeCasts S256x128
  bitsLt_bf16_f32 : FTy.bits .bf16 < FTy.bits .f32
  inb_S1x64x256x128_S1x64x256x128_0_0_0_0 : ∀ a, (![0, 0, 0, 0] : Fin 4 → Nat) a + S1x64x256x128.size a ≤ S1x64x256x128.size a
  h_S1x64x256x128 : 0 < S1x64x256x128.numel
  shapeCasts_S1x64x256x128_S64x256x128 : S1x64x256x128.ShapeCasts S64x256x128
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  shapeCasts_S64x256_S64x256x1 : S64x256.ShapeCasts S64x256x1
  broadcasts_S64x256x1_S64x256x128 : S64x256x1.Broadcasts S64x256x128
  reduces_S64x256x128_S64x128 : S64x256x128.Reduces [1] S64x128
  shapeCasts_S64x128_S64x1x128 : S64x128.ShapeCasts S64x1x128
  broadcasts_S64x1x128_S64x256x128 : S64x1x128.Broadcasts S64x256x128
  slices_S64x256x128_o0_0_0_S16x256x128 : S64x256x128.Slices ![0, 0, 0] S16x256x128
  shapeCasts_S16x256x128_S4096x128 : S16x256x128.ShapeCasts S4096x128
  transposes_S4096x128_p1_0_S128x4096 : S4096x128.Transposes [1, 0] S128x4096
  shapeCasts_S256x4096_S256x16x256 : S256x4096.ShapeCasts S256x16x256
  reduces_S256x16x256_S256x16 : S256x16x256.Reduces [2] S256x16
  shapeCasts_S256x16_S256x16x1 : S256x16.ShapeCasts S256x16x1
  shapeCasts_S256x16x1_S8x32x16 : S256x16x1.ShapeCasts S8x32x16
  reduces_S8x32x16_S8x16 : S8x32x16.Reduces [1] S8x16
  inb_S1x8x64_S1x8x16_0_0_0 : ∀ a, (![0, 0, 0] : Fin 3 → Nat) a + S1x8x16.size a ≤ S1x8x64.size a
  h_S1x8x16 : 0 < S1x8x16.numel
  shapeCasts_S1x8x16_S8x16 : S1x8x16.ShapeCasts S8x16
  shapeCasts_S8x16_S1x8x16 : S8x16.ShapeCasts S1x8x16
  slices_S64x256x128_o16_0_0_S16x256x128 : S64x256x128.Slices ![16, 0, 0] S16x256x128
  inb_S1x8x64_S1x8x16_0_0_16 : ∀ a, (![0, 0, 16] : Fin 3 → Nat) a + S1x8x16.size a ≤ S1x8x64.size a
  slices_S64x256x128_o32_0_0_S16x256x128 : S64x256x128.Slices ![32, 0, 0] S16x256x128
  inb_S1x8x64_S1x8x16_0_0_32 : ∀ a, (![0, 0, 32] : Fin 3 → Nat) a + S1x8x16.size a ≤ S1x8x64.size a
  slices_S64x256x128_o48_0_0_S16x256x128 : S64x256x128.Slices ![48, 0, 0] S16x256x128
  inb_S1x8x64_S1x8x16_0_0_48 : ∀ a, (![0, 0, 48] : Fin 3 → Nat) a + S1x8x16.size a ≤ S1x8x64.size a
  bcast_S_S64 : S_.BroadcastsInDim S64 (![] : Fin 0 → Fin S64.rank)
  bcast_S64_S64x1_0 : S64.BroadcastsInDim S64x1 (![0] : Fin 1 → Fin S64x1.rank)
  concatenates_S64x1_S64x1_S64x2_d1 : Shape.Concatenates [S64x1, S64x1] S64x2 1
  transposes_S2x64_S64x2_1_0 : S2x64.Transposes [1, 0] S64x2
  reducesTo_S64x2_S64_d1 : S64x2.ReducesTo [1] S64
  h_S_ : 0 < S_.numel
  bcast_S64x1_S64x2_0_1 : S64x1.BroadcastsInDim S64x2 (![0, 1] : Fin 2 → Fin S64x2.rank)
  reducesTo_S64x2_S_d0_1 : S64x2.ReducesTo [0, 1] S_
  transposes_S2x64x64_S64x2x64_1_0_2 : S2x64x64.Transposes [1, 0, 2] S64x2x64
  shapeCasts_S64x2x64_S64x128 : S64x2x64.ShapeCasts S64x128
  reducesTo_S64x128_S64_d1 : S64x128.ReducesTo [1] S64
  bcast_S64x1_S64x128_0_1 : S64x1.BroadcastsInDim S64x128 (![0, 1] : Fin 2 → Fin S64x128.rank)
  reducesTo_S64_S_d0 : S64.ReducesTo [0] S_
  dot_S256x128_S128x4096_S256x4096_1_0_0_1_n_n_wf : DotDims.WF S256x128 S128x4096 S256x4096 [1] [0] [0] [1] [] []
  gather_S2x64x64_S64x2_S2x64_0_12_n_n_12_1_211_wf : GatherDims.WF S2x64x64 S64x2 S2x64 [0] [1, 2] [] [1, 2] [] 1 ![2, 1, 1]
  gather_S64x128_S64x2_S64_n_01_n_n_01_1_11_wf : GatherDims.WF S64x128 S64x2 S64 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x32x128.size a ≤ S64x32x128.size a
  hwx0_0 : ∀ i : grid0.Coords, EltTy.bits .f32 = 32 ∨ (Rect.block (s := S64x32x128) S8x32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x256x128.size a ≤ S2x64x256x128.size a
  hwx0_1 : ∀ i : grid0.Coords, EltTy.bits .f32 = 32 ∨ (Rect.block (s := S2x64x256x128) S1x64x256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x256.size a ≤ S2x64x256.size a
  hwx0_2 : ∀ i : grid0.Coords, EltTy.bits .i32 = 32 ∨ (Rect.block (s := S2x64x256) S1x64x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x64.size a ≤ S2x64x64.size a
  hwx0_3 : ∀ i : grid0.Coords, EltTy.bits .f32 = 32 ∨ (Rect.block (s := S2x64x64) S1x8x64.size (cc0_transform_3 i) (hinb0_3 i)).WholeWords (EltTy.packing .f32)

variable [Facts₀]

def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf
def gather_S2x64x64_S64x2_S2x64_0_12_n_n_12_1_211 : GatherDims S2x64x64 S64x2 S2x64 where
  offsetDims := [0]
  collapsedSliceDims := [1, 2]
  operandBatchingDims := []
  startIndicesBatchingDims := []
  startIndexMap := [1, 2]
  indexVectorDim := 1
  sliceSizes := ![2, 1, 1]
  wf := gather_S2x64x64_S64x2_S2x64_0_12_n_n_12_1_211_wf
def gather_S64x128_S64x2_S64_n_01_n_n_01_1_11 : GatherDims S64x128 S64x2 S64 where
  offsetDims := []
  collapsedSliceDims := [0, 1]
  operandBatchingDims := []
  startIndicesBatchingDims := []
  startIndexMap := [0, 1]
  indexVectorDim := 1
  sliceSizes := ![1, 1]
  wf := gather_S64x128_S64x2_S64_n_01_n_n_01_1_11_wf

abbrev win0_0 : Pipeline.Window sig grid0 :=
  Pipeline.Window.ofSpec (Memref.whole main_arg0) S8x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x8x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x32x128 : Shape := ⟨3, ![64, 32, 128]⟩
abbrev S2x64x256x128 : Shape := ⟨4, ![2, 64, 256, 128]⟩
abbrev S2x64x256 : Shape := ⟨3, ![2, 64, 256]⟩
abbrev S64x2 : Shape := ⟨2, ![64, 2]⟩
abbrev S_ : Shape := ⟨0, ![]⟩
abbrev S64x32 : Shape := ⟨2, ![64, 32]⟩
abbrev S64x32x1 : Shape := ⟨3, ![64, 32, 1]⟩
abbrev S2x64x256x1 : Shape := ⟨4, ![2, 64, 256, 1]⟩
abbrev S2x64x128 : Shape := ⟨3, ![2, 64, 128]⟩
abbrev S2x64x1x128 : Shape := ⟨4, ![2, 64, 1, 128]⟩
abbrev S2x64x256x64x32 : Shape := ⟨5, ![2, 64, 256, 64, 32]⟩
abbrev S2x64x64x32x256 : Shape := ⟨5, ![2, 64, 64, 32, 256]⟩
abbrev S2x64x64x32 : Shape := ⟨4, ![2, 64, 64, 32]⟩
abbrev S2x64x64 : Shape := ⟨3, ![2, 64, 64]⟩
abbrev S64 : Shape := ⟨1, ![64]⟩
abbrev S64x1 : Shape := ⟨2, ![64, 1]⟩
abbrev S2x64 : Shape := ⟨2, ![2, 64]⟩
abbrev S64x2x64 : Shape := ⟨3, ![64, 2, 64]⟩
abbrev S64x128 : Shape := ⟨2, ![64, 128]⟩

abbrev nBuf : Space → Nat
  | .hbm => 119
  | .vmem => 0
  | .smem => 0
  | _ => 0

abbrev bufTy : (tb : Table) → Fin (tcTables nBuf tb) → BufTy
  | .hbm, ⟨0, _⟩ => ⟨S64x32x128, .f32⟩
  | .hbm, ⟨1, _⟩ => ⟨S2x64x256x128, .f32⟩
  | .hbm, ⟨2, _⟩ => ⟨S2x64x256, .i32⟩
  | .hbm, ⟨3, _⟩ => ⟨S64x2, .f32⟩
  | .hbm, ⟨4, _⟩ => ⟨S64x32x128, .f32⟩
  | .hbm, ⟨5, _⟩ => ⟨S_, .f32⟩
  | .hbm, ⟨6, _⟩ => ⟨S64x32, .f32⟩
  | .hbm, ⟨7, _⟩ => ⟨S64x32x1, .f32⟩
  | .hbm, ⟨8, _⟩ => ⟨S64x32x1, .f32⟩
  | .hbm, ⟨9, _⟩ => ⟨S_, .f32⟩
  | .hbm, ⟨10, _⟩ => ⟨S64x32x1, .f32⟩
  | .hbm, ⟨11, _⟩ => ⟨S64x32x1, .f32⟩
  | .hbm, ⟨12, _⟩ => ⟨S64x32x128, .f32⟩
  | .hbm, ⟨13, _⟩ => ⟨S64x32x128, .f32⟩
  | .hbm, ⟨14, _⟩ => ⟨S2x64x256x1, .i32⟩
  | .hbm, ⟨15, _⟩ => ⟨S2x64x256x1, .f32⟩
  | .hbm, ⟨16, _⟩ => ⟨S2x64x256x128, .f32⟩
  | .hbm, ⟨17, _⟩ => ⟨S2x64x256x128, .f32⟩
  | .hbm, ⟨18, _⟩ => ⟨S2x64x256x128, .f32⟩
  | .hbm, ⟨19, _⟩ => ⟨S_, .f32⟩
  | .hbm, ⟨20, _⟩ => ⟨S2x64x128, .f32⟩
  | .hbm, ⟨21, _⟩ => ⟨S2x64x1x128, .f32⟩
  | .hbm, ⟨22, _⟩ => ⟨S2x64x1x128, .f32⟩
  | .hbm, ⟨23, _⟩ => ⟨S_, .f32⟩
  | .hbm, ⟨24, _⟩ => ⟨S2x64x1x128, .f32⟩
  | .hbm, ⟨25, _⟩ => ⟨S2x64x1x128, .f32⟩
  | .hbm, ⟨26, _⟩ => ⟨S2x64x256x128, .f32⟩
  | .hbm, ⟨27, _⟩ => ⟨S2x64x256x128, .f32⟩
  | .hbm, ⟨28, _⟩ => ⟨S2x64x256x64x32, .f32⟩
  | .hbm, ⟨29, _⟩ => ⟨S2x64x64x32x256, .f32⟩
  | .hbm, ⟨30, _⟩ => ⟨S_, .f32⟩
  | .hbm, ⟨31, _⟩ => ⟨S2x64x64x32, .f32⟩
  | .hbm, ⟨32, _⟩ => ⟨S_, .f32⟩
  | .hbm, ⟨33, _⟩ => ⟨S2x64x64, .f32⟩
  | .hbm, ⟨34, _⟩ => ⟨S64, .i32⟩
  | .hbm, ⟨35, _⟩ => ⟨S_, .i32⟩
  | .hbm, ⟨36, _⟩ => ⟨S64, .i32⟩
  | .hbm, ⟨37, _⟩ => ⟨S64, .i1⟩
  | .hbm, ⟨38, _⟩ => ⟨S_, .i32⟩
  | .hbm, ⟨39, _⟩ => ⟨S64, .i32⟩
  | .hbm, ⟨40, _⟩ => ⟨S64, .i32⟩
  | .hbm, ⟨41, _⟩ => ⟨S64, .i32⟩
  | .hbm, ⟨42, _⟩ => ⟨S_, .i32⟩
  | .hbm, ⟨43, _⟩ => ⟨S64, .i32⟩
  | .hbm, ⟨44, _⟩ => ⟨S64, .i1⟩
  | .hbm, ⟨45, _⟩ => ⟨S_, .i32⟩
  | .hbm, ⟨46, _⟩ => ⟨S64, .i32⟩
  | .hbm, ⟨47, _⟩ => ⟨S64, .i32⟩
  | .hbm, ⟨48, _⟩ => ⟨S64, .i32⟩
  | .hbm, ⟨49, _⟩ => ⟨S64x1, .i32⟩
  | .hbm, ⟨50, _⟩ => ⟨S64x1, .i32⟩
  | .hbm, ⟨51, _⟩ => ⟨S64x2, .i32⟩
  | .hbm, ⟨52, _⟩ => ⟨S2x64, .f32⟩
  | .hbm, ⟨53, _⟩ => ⟨S64x2, .f32⟩
  | .hbm, ⟨54, _⟩ => ⟨S_, .f32⟩
  | .hbm, ⟨55, _⟩ => ⟨S64, .f32⟩
  | .hbm, ⟨56, _⟩ => ⟨S_, .f32⟩
  | .hbm, ⟨57, _⟩ => ⟨S64, .f32⟩
  | .hbm, ⟨58, _⟩ => ⟨S64, .f32⟩
  | .hbm, ⟨59, _⟩ => ⟨S64x1, .f32⟩
  | .hbm, ⟨60, _⟩ => ⟨S64x2, .f32⟩
  | .hbm, ⟨61, _⟩ => ⟨S64x2, .f32⟩
  | .hbm, ⟨62, _⟩ => ⟨S64x2, .f32⟩
  | .hbm, ⟨63, _⟩ => ⟨S_, .f32⟩
  | .hbm, ⟨64, _⟩ => ⟨S64, .f32⟩
  | .hbm, ⟨65, _⟩ => ⟨S64x1, .f32⟩
  | .hbm, ⟨66, _⟩ => ⟨S64x1, .f32⟩
  | .hbm, ⟨67, _⟩ => ⟨S64x2, .f32⟩
  | .hbm, ⟨68, _⟩ => ⟨S64x2, .f32⟩
  | .hbm, ⟨69, _⟩ => ⟨S64x2, .f32⟩
  | .hbm, ⟨70, _⟩ => ⟨S64x2, .f32⟩
  | .hbm, ⟨71, _⟩ => ⟨S64x2, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S64x2x64, .f32⟩
  | .hbm, ⟨77, _⟩ => ⟨S64x128, .f32⟩
  | .hbm, ⟨78, _⟩ => ⟨S_, .f32⟩
  | .hbm, ⟨79, _⟩ => ⟨S64, .f32⟩
  | .hbm, ⟨80, _⟩ => ⟨S_, .f32⟩
  | .hbm, ⟨81, _⟩ => ⟨S64, .f32⟩
  | .hbm, ⟨82, _⟩ => ⟨S64, .f32⟩
  | .hbm, ⟨83, _⟩ => ⟨S64x1, .f32⟩
  | .hbm, ⟨84, _⟩ => ⟨S64x128, .f32⟩
  | .hbm, ⟨85, _⟩ => ⟨S64x128, .f32⟩
  | .hbm, ⟨86, _⟩ => ⟨S64x128, .f32⟩
  | .hbm, ⟨87, _⟩ => ⟨S_, .f32⟩
  | .hbm, ⟨88, _⟩ => ⟨S64, .f32⟩
  | .hbm, ⟨89, _⟩ => ⟨S64x1, .f32⟩
  | .hbm, ⟨90, _⟩ => ⟨S64x1, .f32⟩
  | .hbm, ⟨91, _⟩ => ⟨S64x128, .f32⟩
  | .hbm, ⟨92, _⟩ => ⟨S64x128, .f32⟩
  | .hbm, ⟨93, _⟩ => ⟨S_, .i32⟩
  | .hbm, ⟨94, _⟩ => ⟨S64, .i32⟩
  | .hbm, ⟨95, _⟩ => ⟨S64, .i1⟩
  | .hbm, ⟨96, _⟩ => ⟨S_, .i32⟩
  | .hbm, ⟨97, _⟩ => ⟨S64, .i32⟩
  | .hbm, ⟨98, _⟩ => ⟨S64, .i32⟩
  | .hbm, ⟨99, _⟩ => ⟨S64, .i32⟩
  | .hbm, ⟨100, _⟩ => ⟨S_, .i32⟩
  | .hbm, ⟨101, _⟩ => ⟨S64, .i32⟩
  | .hbm, ⟨102, _⟩ => ⟨S64, .i1⟩
  | .hbm, ⟨103, _⟩ => ⟨S_, .i32⟩
  | .hbm, ⟨104, _⟩ => ⟨S64, .i32⟩
  | .hbm, ⟨105, _⟩ => ⟨S64, .i32⟩
  | .hbm, ⟨106, _⟩ => ⟨S64, .i32⟩
  | .hbm, ⟨107, _⟩ => ⟨S64x1, .i32⟩
  | .hbm, ⟨108, _⟩ => ⟨S64x1, .i32⟩
  | .hbm, ⟨109, _⟩ => ⟨S64x2, .i32⟩
  | .hbm, ⟨110, _⟩ => ⟨S64, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | _, _ => ⟨S64x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_call1_v0 : Ref sig .tc := ⟨.hbm, 18, rfl⟩
abbrev main_call1_cst : Ref sig .tc := ⟨.hbm, 19, rfl⟩
abbrev main_call1_v1 : Ref sig .tc := ⟨.hbm, 20, rfl⟩
abbrev main_call1_v2 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_c : Ref sig .tc := ⟨.hbm, 35, rfl⟩
abbrev main_v19 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call2_cst : Ref sig .tc := ⟨.hbm, 54, rfl⟩
abbrev main_call2_v0 : Ref sig .tc := ⟨.hbm, 55, rfl⟩
abbrev main_call2_cst_0 : Ref sig .tc := ⟨.hbm, 56, rfl⟩
abbrev main_call2_v1 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_v6 : Ref sig .tc := ⟨.hbm, 62, rfl⟩
abbrev main_call2_cst_1 : Ref sig .tc := ⟨.hbm, 63, rfl⟩
abbrev main_call2_v7 : Ref sig .tc := ⟨.hbm, 64, rfl⟩
abbrev main_call2_v8 : Ref sig .tc := ⟨.hbm, 65, rfl⟩
abbrev main_call2_v9 : Ref sig .tc := ⟨.hbm, 66, rfl⟩
abbrev main_call2_v10 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_cst_6 : Ref sig .tc := ⟨.hbm, 72, rfl⟩
abbrev main_v38 : Ref sig .tc := ⟨.hbm, 73, rfl⟩
abbrev main_cst_7 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_call3_cst : Ref sig .tc := ⟨.hbm, 78, rfl⟩
abbrev main_call3_v0 : Ref sig .tc := ⟨.hbm, 79, rfl⟩
abbrev main_call3_cst_0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_v6 : Ref sig .tc := ⟨.hbm, 86, rfl⟩
abbrev main_call3_cst_1 : Ref sig .tc := ⟨.hbm, 87, rfl⟩
abbrev main_call3_v7 : Ref sig .tc := ⟨.hbm, 88, rfl⟩
abbrev main_call3_v8 : Ref sig .tc := ⟨.hbm, 89, rfl⟩
abbrev main_call3_v9 : Ref sig .tc := ⟨.hbm, 90, rfl⟩
abbrev main_call3_v10 : Ref sig .tc := ⟨.hbm, 91, rfl⟩
abbrev main_v42 : Ref sig .tc := ⟨.hbm, 92, rfl⟩
abbrev main_c_8 : Ref sig .tc := ⟨.hbm, 93, rfl⟩
abbrev main_v43 : Ref sig .tc := ⟨.hbm, 94, rfl⟩
abbrev main_v44 : Ref sig .tc := ⟨.hbm, 95, rfl⟩
abbrev main_c_9 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_c_10 : Ref sig .tc := ⟨.hbm, 100, rfl⟩
abbrev main_v48 : Ref sig .tc := ⟨.hbm, 101, rfl⟩
abbrev main_v49 : Ref sig .tc := ⟨.hbm, 102, rfl⟩
abbrev main_c_11 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_cst_12 : Ref sig .tc := ⟨.hbm, 111, rfl⟩
abbrev main_v57 : Ref sig .tc := ⟨.hbm, 112, rfl⟩
abbrev main_cst_13 : Ref sig .tc := ⟨.hbm, 113, rfl⟩
abbrev main_v58 : Ref sig .tc := ⟨.hbm, 114, rfl⟩
abbrev main_v59 : Ref sig .tc := ⟨.hbm, 115, rfl⟩
abbrev main_cst_14 : Ref sig .tc := ⟨.hbm, 116, rfl⟩
abbrev main_v60 : Ref sig .tc := ⟨.hbm, 117, rfl⟩
abbrev main_v61 : Ref sig .tc := ⟨.hbm, 118, rfl⟩

abbrev nD : Nat := 1
abbrev τ : Topo := Topo.v7x

variable {F : FTy → Type} [FloatOps F]

class Facts₀ : Prop where
  reducesTo_S64x32x128_S64x32_d2 : S64x32x128.ReducesTo [2] S64x32
  h_S_ : 0 < S_.numel
  bcast_S64x32_S64x32x1_0_1 : S64x32.BroadcastsInDim S64x32x1 (![0, 1] : Fin 2 → Fin S64x32x1.rank)
  bcast_S_S64x32x1 : S_.BroadcastsInDim S64x32x1 (![] : Fin 0 → Fin S64x32x1.rank)
  bcast_S64x32x1_S64x32x128_0_1_2 : S64x32x1.BroadcastsInDim S64x32x128 (![0, 1, 2] : Fin 3 → Fin S64x32x128.rank)
  bcast_S2x64x256_S2x64x256x1_0_1_2 : S2x64x256.BroadcastsInDim S2x64x256x1 (![0, 1, 2] : Fin 3 → Fin S2x64x256x1.rank)
  bcast_S2x64x256x1_S2x64x256x128_0_1_2_3 : S2x64x256x1.BroadcastsInDim S2x64x256x128 (![0, 1, 2, 3] : Fin 4 → Fin S2x64x256x128.rank)
  reducesTo_S2x64x256x128_S2x64x128_d2 : S2x64x256x128.ReducesTo [2] S2x64x128
  bcast_S2x64x128_S2x64x1x128_0_1_3 : S2x64x128.BroadcastsInDim S2x64x1x128 (![0, 1, 3] : Fin 3 → Fin S2x64x1x128.rank)
  bcast_S_S2x64x1x128 : S_.BroadcastsInDim S2x64x1x128 (![] : Fin 0 → Fin S2x64x1x128.rank)
  bcast_S2x64x1x128_S2x64x256x128_0_1_2_3 : S2x64x1x128.BroadcastsInDim S2x64x256x128 (![0, 1, 2, 3] : Fin 4 → Fin S2x64x256x128.rank)
  transposes_S2x64x256x64x32_S2x64x64x32x256_0_3_1_4_2 : S2x64x256x64x32.Transposes [0, 3, 1, 4, 2] S2x64x64x32x256
  reducesTo_S2x64x64x32x256_S2x64x64x32_d4 : S2x64x64x32x256.ReducesTo [4] S2x64x64x32
  reducesTo_S2x64x64x32_S2x64x64_d3 : S2x64x64x32.ReducesTo [3] S2x64x64
  bcast_S_S64 : S_.BroadcastsInDim S64 (![] : Fin 0 → Fin S64.rank)
  bcast_S64_S64x1_0 : S64.BroadcastsInDim S64x1 (![0] : Fin 1 → Fin S64x1.rank)
  concatenates_S64x1_S64x1_S64x2_d1 : Shape.Concatenates [S64x1, S64x1] S64x2 1
  transposes_S2x64_S64x2_1_0 : S2x64.Transposes [1, 0] S64x2
  reducesTo_S64x2_S64_d1 : S64x2.ReducesTo [1] S64
  bcast_S64x1_S64x2_0_1 : S64x1.BroadcastsInDim S64x2 (![0, 1] : Fin 2 → Fin S64x2.rank)
  reducesTo_S64x2_S_d0_1 : S64x2.ReducesTo [0, 1] S_
  transposes_S2x64x64_S64x2x64_1_0_2 : S2x64x64.Transposes [1, 0, 2] S64x2x64
  shapeCasts_S64x2x64_S64x128 : S64x2x64.ShapeCasts S64x128
  reducesTo_S64x128_S64_d1 : S64x128.ReducesTo [1] S64
  bcast_S64x1_S64x128_0_1 : S64x1.BroadcastsInDim S64x128 (![0, 1] : Fin 2 → Fin S64x128.rank)
  reducesTo_S64_S_d0 : S64.ReducesTo [0] S_
  dot_S2x64x256x128_S64x32x128_S2x64x256x64x32_3_2_012_01_n_n_wf : DotDims.WF S2x64x256x128 S64x32x128 S2x64x256x64x32 [3] [2] [0, 1, 2] [0, 1] [] []
  gather_S2x64x64_S64x2_S2x64_0_12_n_n_12_1_211_wf : GatherDims.WF S2x64x64 S64x2 S2x64 [0] [1, 2] [] [1, 2] [] 1 ![2, 1, 1]
  gather_S64x128_S64x2_S64_n_01_n_n_01_1_11_wf : GatherDims.WF S64x128 S64x2 S64 [] [0, 1] [] [0, 1] [] 1 ![1, 1]

variable [Facts₀]

def dot_S2x64x256x128_S64x32x128_S2x64x256x64x32_3_2_012_01_n_n : DotDims S2x64x256x128 S64x32x128 S2x64x256x64x32 where
  lhsContracting := [3]
  rhsContracting := [2]
  lhsNonContracting := [0, 1, 2]
  rhsNonContracting := [0, 1]
  lhsBatch := []
  rhsBatch := []
  wf := dot_S2x64x256x128_S64x32x128_S2x64x256x64x32_3_2_012_01_n_n_wf
def gather_S2x64x64_S64x2_S2x64_0_12_n_n_12_1_211 : GatherDims S2x64x64 S64x2 S2x64 where
  offsetDims := [0]
  collapsedSliceDims := [1, 2]
  operandBatchingDims := []
  startIndicesBatchingDims := []
  startIndexMap := [1, 2]
  indexVectorDim := 1
  sliceSizes := ![2, 1, 1]
  wf := gather_S2x64x64_S64x2_S2x64_0_12_n_n_12_1_211_wf
def gather_S64x128_S64x2_S64_n_01_n_n_01_1_11 : GatherDims S64x128 S64x2 S64 where
  offsetDims := []
  collapsedSliceDims := [0, 1]
  operandBatchingDims := []
  startIndicesBatchingDims := []
  startIndexMap := [0, 1]
  indexVectorDim := 1
  sliceSizes := ![1, 1]
  wf := gather_S64x128_S64x2_S64_n_01_n_n_01_1_11_wf

class Facts : Prop extends Facts₀ where

variable [Facts]
-- ==== Proof.KernelRun.lean ====
/-
  The run of `Kernel`'s @main: one region over a 2 × 8 grid of points, then eighty-five host operations.

  At grid point (n, j) the region's body reads three blocks — rows 8j … 8j+7 of the query array, the whole
  document slab n, the whole mask slab n —, and fills the 8 × 64 block (n, rows 8j … 8j+7) of the score
  array by four stores, one per group of sixteen document columns; the four rectangles tile the block, so
  after the body the block is a function of the three input blocks alone (`scoreBlock`), whatever it held
  before (the body also loads each rectangle just before storing it and drops what it read).
  The query block moves at every point; the document and mask blocks move only when n does, and where
  they are not fetched again the staging buffer still holds the block of the point before, which is the
  same block. The host operations after the region write only their own result buffers: the four
  argument arrays end as they began, and the last buffer holds the operations' fold over the score array.
-/
import proofs.«120617_j15152644621119_2_alg».proof.Proof.Gen.Kernel.Launch
import proofs.«120617_j15152644621119_2_alg».proof.Proof.Gen.Kernel.Skeleton
import proofs.«120617_j15152644621119_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main: the region first, then five stretches of host operations -/

/-- The host operations after the region, stretch by stretch (the two softmax calls are stretches of their own). -/
abbrev tailOps : List (List (HloOp τ sig (Elt F))) := [hostOps1, hostOps1_1, hostOps1_2, hostOps1_3, hostOps1_4]

/-- Nothing runs before the region: it finds every buffer as launched. -/
abbrev V0 (c : Dev nD) : Valuation τ sig (Elt F) :=
  StableHlo.after (List.flatten ([] : List (List (HloOp τ sig (Elt F))))) (fun b => m (c, b))
abbrev V (c : Dev nD) (b : Ref sig .tc) : Buf (Elt F) ((c : Thread nD τ).loc b) := V0 m c (Proc.devRef .tc b)

theorem V_eq (c : Dev nD) (b : Ref sig .tc) : V m c b = m ((c : Thread nD τ).loc b) := rfl

theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall]) (by simp only [List.Forall]) main_chain

/-- No host operation allocates. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl <;>
  · simp only [List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl <;> rfl

/-- Each touches only unscoped TensorCore buffers: the region's arrays or buffers that bypass it. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- None writes an array of the region: each writes its own result buffer, and no result buffer is the query,
    document, mask or score array. -/
theorem tail_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl <;>
  · simp only [List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl <;>
    · intro w
      fin_cases w <;>
        simp only [StableHlo.nullary_writes, StableHlo.unary_writes, StableHlo.binary_writes, StableHlo.ternary_writes,
          StableHlo.reshape_writes,
          Finset.mem_singleton] <;>
        exact StableHlo.devRef_ne_of_ne (by decide)

/-- The label array is no array of the region and no host operation writes it: it ends as launched. -/
theorem labels_kept (dats : (p : Fin 1) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp (by
      simp only [tailOps, hostOps1, hostOps1_1, hostOps1_2, hostOps1_3, hostOps1_4, List.flatten_cons, List.flatten_nil, List.append_nil,
        List.cons_append, List.nil_append, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  rfl

/-! ## The blocks -/

/-- Window `w`'s block at point `t`, read off its array as launched. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's staging buffer holds that input's block at every point, refetched there or not: where it is not,
    the block index has not moved since the point before. -/
theorem found_q {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found_d {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found_mask {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the score block -/

abbrev rq : Rect S8x32x128 := Rect.unit (s := S8x32x128) ![0, 0, 0] S8x32x128.size inb_S8x32x128_S8x32x128_0_0_0
abbrev rd : Rect S1x64x256x128 := Rect.unit (s := S1x64x256x128) ![0, 0, 0, 0] S1x64x256x128.size inb_S1x64x256x128_S1x64x256x128_0_0_0_0
abbrev rmask : Rect S1x64x256 := Rect.unit (s := S1x64x256) ![0, 0, 0] S1x64x256.size inb_S1x64x256_S1x64x256_0_0_0
/-- The four column groups of the 8 × 64 score block: document columns 0–15, 16–31, 32–47, 48–63. -/
abbrev rc0 : Rect S1x8x64 := Rect.unit (s := S1x8x64) ![0, 0, 0] S1x8x16.size inb_S1x8x64_S1x8x16_0_0_0
abbrev rc1 : Rect S1x8x64 := Rect.unit (s := S1x8x64) ![0, 0, 16] S1x8x16.size inb_S1x8x64_S1x8x16_0_0_16
abbrev rc2 : Rect S1x8x64 := Rect.unit (s := S1x8x64) ![0, 0, 32] S1x8x16.size inb_S1x8x64_S1x8x16_0_0_32
abbrev rc3 : Rect S1x8x64 := Rect.unit (s := S1x8x64) ![0, 0, 48] S1x8x16.size inb_S1x8x64_S1x8x16_0_0_48

/-- The score block after the body, from the three input blocks: the four stores as pieces, the last store first. -/
def scoreBlock (x0 : Vec F S8x32x128 .f32) (x1 : Vec F S1x64x256x128 .f32) (x2 : Vec F S1x64x256 .i32) : Vec F S1x8x64 .f32 :=
  View.canon [⟨rc3, k0_pay1 (k0_pay8 (k0_pay2 (View.ld x0 rq)) (k0_pay3 (View.ld x1 rd) (View.ld x2 rmask)))⟩,
    ⟨rc2, k0_pay7 (k0_pay2 (View.ld x0 rq)) (k0_pay3 (View.ld x1 rd) (View.ld x2 rmask))⟩,
    ⟨rc1, k0_pay6 (k0_pay2 (View.ld x0 rq)) (k0_pay3 (View.ld x1 rd) (View.ld x2 rmask))⟩,
    ⟨rc0, k0_pay5 (k0_pay4 (View.ld x0 rq) (View.ld x1 rd) (View.ld x2 rmask))⟩]

/-- The four rectangles tile the block. -/
theorem score_cover (p3 p2 p1 p0 : Vec F S1x8x16 .f32) (y : S1x8x64.Idx) :
    ∃ pc ∈ ([⟨rc3, p3⟩, ⟨rc2, p2⟩, ⟨rc1, p1⟩, ⟨rc0, p0⟩] : List (View.Piece (Elt F) S1x8x64 .f32)), y ∈ pc.1.set :=
  View.cover_of_tiled [⟨rc3, p3⟩, ⟨rc2, p2⟩, ⟨rc1, p1⟩, ⟨rc0, p0⟩] S1x8x16.size (by rfl) y

set_option maxHeartbeats 1000000 in
/-- The body on whole staging buffers — the three inputs' at read contents `x0 x1 x2`, the output's at anything — runs to
    its end with the inputs' as they were and the output's at `scoreBlock x0 x1 x2`. -/
theorem body_triple (c : Dev nD) (E : Set ℕ) (i : grid0.Coords)
    (arg2 : Memref sig .tc .vmem S8x32x128 .f32) (harg2 : arg2.IsWhole) (arg3 : Memref sig .tc .vmem S1x64x256x128 .f32) (harg3 : arg3.IsWhole)
    (arg4 : Memref sig .tc .vmem S1x64x256 .i32) (harg4 : arg4.IsWhole) (arg5 : Memref sig .tc .vmem S1x8x64 .f32) (harg5 : arg5.IsWhole)
    (x0 : Vec F S8x32x128 .f32) (x1 : Vec F S1x64x256x128 .f32) (x2 : Vec F S1x64x256 .i32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (scoreBlock x0 x1 x2)) -∗ K ⟨⟩))
      ⊢ wp frame (wpE (defs₀ (F := F)) Variants.none c none) E (cc0__maxsim_kernel i arg2 harg2 arg3 harg3 arg4 harg4 arg5 harg5) K := by
  simp only [cc0__maxsim_kernel_eq_skeleton]; unfold cc0__maxsim_kernel_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (score_cover _ _ _ _)

/-! ## The proof data of the region -/

/-- Arrays as launched; after the body at point `t` each input's buffer at its block, the output's at `scoreBlock` of the
    three blocks; nothing carried between points, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => scoreBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_q (c : Dev nD) (t : Fin cfg0.N) : (dats m 0 c).after 0 t = iblk m c 0 t := by dsimp only [dats]
theorem after_d (c : Dev nD) (t : Fin cfg0.N) : (dats m 0 c).after 1 t = iblk m c 1 t := by dsimp only [dats]
theorem after_mask (c : Dev nD) (t : Fin cfg0.N) : (dats m 0 c).after 2 t = iblk m c 2 t := by dsimp only [dats]
theorem after_score (c : Dev nD) (t : Fin cfg0.N) :
    (dats m 0 c).after 3 t = scoreBlock (iblk m c 0 t) (iblk m c 1 t) (iblk m c 2 t) := by dsimp only [dats]

theorem before_q (c : Dev nD) (t : Fin cfg0.N) (d) : (dats m 0 c).before 0 t d = iblk m c 0 t :=
  found_q m (dats m 0 c) (A_eq m c 0) (after_q m c) t d
theorem before_d (c : Dev nD) (t : Fin cfg0.N) (d) : (dats m 0 c).before 1 t d = iblk m c 1 t :=
  found_d m (dats m 0 c) (A_eq m c 1) (after_d m c) t d
theorem before_mask (c : Dev nD) (t : Fin cfg0.N) (d) : (dats m 0 c).before 2 t d = iblk m c 2 t :=
  found_mask m (dats m 0 c) (A_eq m c 2) (after_mask m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_d, before_mask]
  rw [show (dats m 0 c).Φ t.succ = (dats m 0 c).Φ t.castSucc from rfl,
    show (dats m 0 c).owesAt () t.succ = (dats m 0 c).owesAt () t.castSucc from rfl,
    after_q, after_d, after_mask, after_score]
  iintro ⟨HΦ, Ho, ⟨%d0, H0⟩, ⟨%d1, H1⟩, ⟨%d2, H2⟩, ⟨%d3, H3⟩⟩
  iapply (body_triple c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; at the end each array of the region holds what the proof data
    say and every other unscoped buffer what the host operations leave of the region's exit contents. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The four argument arrays end as launched: three are inputs of the region, which never writes an input's array;
    the fourth bypasses it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans (A_eq m c 0)),
     ((h c).1 1).trans (((dats m 0 c).arrAt_in 1 rfl _).trans (A_eq m c 1)),
     ((h c).1 2).trans (((dats m 0 c).arrAt_in 2 rfl _).trans (A_eq m c 2)),
     ((h c).2 main_arg3 (Pipeline.mem_restRefs_of main_arg3 (by decide) (by decide))).trans (labels_kept m (dats m) c)⟩) (run_main m ρ)

end Cert.Kernel.Run

end
-- ==== Proof.KernelIdealRun.lean ====
/-
  The run of `KernelIdeal`'s @main: one region over a 2 × 8 grid of points, then eighty-five host operations.

  At grid point (n, j) the region's body reads three blocks — rows 8j … 8j+7 of the query array, the whole
  document slab n, the whole mask slab n —, and fills the 8 × 64 block (n, rows 8j … 8j+7) of the score
  array by four stores, one per group of sixteen document columns; the four rectangles tile the block, so
  after the body the block is a function of the three input blocks alone (`scoreBlock`), whatever it held
  before (the body also loads each rectangle just before storing it and drops what it read).
  The query block moves at every point; the document and mask blocks move only when n does, and where
  they are not fetched again the staging buffer still holds the block of the point before, which is the
  same block. The host operations after the region write only their own result buffers: the four
  argument arrays end as they began, and the last buffer holds the operations' fold over the score array.
-/
import proofs.«120617_j15152644621119_2_alg».proof.Proof.Gen.KernelIdeal.Launch
import proofs.«120617_j15152644621119_2_alg».proof.Proof.Gen.KernelIdeal.Skeleton
import proofs.«120617_j15152644621119_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main: the region first, then five stretches of host operations -/

/-- The host operations after the region, stretch by stretch (the two softmax calls are stretches of their own). -/
abbrev tailOps : List (List (HloOp τ sig (Elt F))) := [hostOps1, hostOps1_1, hostOps1_2, hostOps1_3, hostOps1_4]

/-- Nothing runs before the region: it finds every buffer as launched. -/
abbrev V0 (c : Dev nD) : Valuation τ sig (Elt F) :=
  StableHlo.after (List.flatten ([] : List (List (HloOp τ sig (Elt F))))) (fun b => m (c, b))
abbrev V (c : Dev nD) (b : Ref sig .tc) : Buf (Elt F) ((c : Thread nD τ).loc b) := V0 m c (Proc.devRef .tc b)

theorem V_eq (c : Dev nD) (b : Ref sig .tc) : V m c b = m ((c : Thread nD τ).loc b) := rfl

theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall]) (by simp only [List.Forall]) main_chain

/-- No host operation allocates. -/
theorem tail_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl <;>
  · simp only [List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl <;> rfl

/-- Each touches only unscoped TensorCore buffers: the region's arrays or buffers that bypass it. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- None writes an array of the region: each writes its own result buffer, and no result buffer is the query,
    document, mask or score array. -/
theorem tail_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl <;>
  · simp only [List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl <;>
    · intro w
      fin_cases w <;>
        simp only [StableHlo.nullary_writes, StableHlo.unary_writes, StableHlo.binary_writes, StableHlo.ternary_writes,
          StableHlo.reshape_writes,
          Finset.mem_singleton] <;>
        exact StableHlo.devRef_ne_of_ne (by decide)

/-- The label array is no array of the region and no host operation writes it: it ends as launched. -/
theorem labels_kept (dats : (p : Fin 1) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp (by
      simp only [tailOps, hostOps1, hostOps1_1, hostOps1_2, hostOps1_3, hostOps1_4, List.flatten_cons, List.flatten_nil, List.append_nil,
        List.cons_append, List.nil_append, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  rfl

/-! ## The blocks -/

/-- Window `w`'s block at point `t`, read off its array as launched. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's staging buffer holds that input's block at every point, refetched there or not: where it is not,
    the block index has not moved since the point before. -/
theorem found_q {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem found_d {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem found_mask {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the score block -/

abbrev rq : Rect S8x32x128 := Rect.unit (s := S8x32x128) ![0, 0, 0] S8x32x128.size inb_S8x32x128_S8x32x128_0_0_0
abbrev rd : Rect S1x64x256x128 := Rect.unit (s := S1x64x256x128) ![0, 0, 0, 0] S1x64x256x128.size inb_S1x64x256x128_S1x64x256x128_0_0_0_0
abbrev rmask : Rect S1x64x256 := Rect.unit (s := S1x64x256) ![0, 0, 0] S1x64x256.size inb_S1x64x256_S1x64x256_0_0_0
/-- The four column groups of the 8 × 64 score block: document columns 0–15, 16–31, 32–47, 48–63. -/
abbrev rc0 : Rect S1x8x64 := Rect.unit (s := S1x8x64) ![0, 0, 0] S1x8x16.size inb_S1x8x64_S1x8x16_0_0_0
abbrev rc1 : Rect S1x8x64 := Rect.unit (s := S1x8x64) ![0, 0, 16] S1x8x16.size inb_S1x8x64_S1x8x16_0_0_16
abbrev rc2 : Rect S1x8x64 := Rect.unit (s := S1x8x64) ![0, 0, 32] S1x8x16.size inb_S1x8x64_S1x8x16_0_0_32
abbrev rc3 : Rect S1x8x64 := Rect.unit (s := S1x8x64) ![0, 0, 48] S1x8x16.size inb_S1x8x64_S1x8x16_0_0_48

/-- The score block after the body, from the three input blocks: the four stores as pieces, the last store first. -/
def scoreBlock (x0 : Vec F S8x32x128 .f32) (x1 : Vec F S1x64x256x128 .f32) (x2 : Vec F S1x64x256 .i32) : Vec F S1x8x64 .f32 :=
  View.canon [⟨rc3, k0_pay1 (k0_pay8 (k0_pay2 (View.ld x0 rq)) (k0_pay3 (View.ld x1 rd) (View.ld x2 rmask)))⟩,
    ⟨rc2, k0_pay7 (k0_pay2 (View.ld x0 rq)) (k0_pay3 (View.ld x1 rd) (View.ld x2 rmask))⟩,
    ⟨rc1, k0_pay6 (k0_pay2 (View.ld x0 rq)) (k0_pay3 (View.ld x1 rd) (View.ld x2 rmask))⟩,
    ⟨rc0, k0_pay5 (k0_pay4 (View.ld x0 rq) (View.ld x1 rd) (View.ld x2 rmask))⟩]

/-- The four rectangles tile the block. -/
theorem score_cover (p3 p2 p1 p0 : Vec F S1x8x16 .f32) (y : S1x8x64.Idx) :
    ∃ pc ∈ ([⟨rc3, p3⟩, ⟨rc2, p2⟩, ⟨rc1, p1⟩, ⟨rc0, p0⟩] : List (View.Piece (Elt F) S1x8x64 .f32)), y ∈ pc.1.set :=
  View.cover_of_tiled [⟨rc3, p3⟩, ⟨rc2, p2⟩, ⟨rc1, p1⟩, ⟨rc0, p0⟩] S1x8x16.size (by rfl) y

set_option maxHeartbeats 1000000 in
/-- The body on whole staging buffers — the three inputs' at read contents `x0 x1 x2`, the output's at anything — runs to
    its end with the inputs' as they were and the output's at `scoreBlock x0 x1 x2`. -/
theorem body_triple (c : Dev nD) (E : Set ℕ) (i : grid0.Coords)
    (arg2 : Memref sig .tc .vmem S8x32x128 .f32) (harg2 : arg2.IsWhole) (arg3 : Memref sig .tc .vmem S1x64x256x128 .f32) (harg3 : arg3.IsWhole)
    (arg4 : Memref sig .tc .vmem S1x64x256 .i32) (harg4 : arg4.IsWhole) (arg5 : Memref sig .tc .vmem S1x8x64 .f32) (harg5 : arg5.IsWhole)
    (x0 : Vec F S8x32x128 .f32) (x1 : Vec F S1x64x256x128 .f32) (x2 : Vec F S1x64x256 .i32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (scoreBlock x0 x1 x2)) -∗ K ⟨⟩))
      ⊢ wp frame (wpE (defs₀ (F := F)) Variants.none c none) E (cc0__maxsim_kernel i arg2 harg2 arg3 harg3 arg4 harg4 arg5 harg5) K := by
  simp only [cc0__maxsim_kernel_eq_skeleton]; unfold cc0__maxsim_kernel_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (score_cover _ _ _ _)

/-! ## The proof data of the region -/

/-- Arrays as launched; after the body at point `t` each input's buffer at its block, the output's at `scoreBlock` of the
    three blocks; nothing carried between points, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => scoreBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_q (c : Dev nD) (t : Fin cfg0.N) : (dats m 0 c).after 0 t = iblk m c 0 t := by dsimp only [dats]
theorem after_d (c : Dev nD) (t : Fin cfg0.N) : (dats m 0 c).after 1 t = iblk m c 1 t := by dsimp only [dats]
theorem after_mask (c : Dev nD) (t : Fin cfg0.N) : (dats m 0 c).after 2 t = iblk m c 2 t := by dsimp only [dats]
theorem after_score (c : Dev nD) (t : Fin cfg0.N) :
    (dats m 0 c).after 3 t = scoreBlock (iblk m c 0 t) (iblk m c 1 t) (iblk m c 2 t) := by dsimp only [dats]

theorem before_q (c : Dev nD) (t : Fin cfg0.N) (d) : (dats m 0 c).before 0 t d = iblk m c 0 t :=
  found_q m (dats m 0 c) (A_eq m c 0) (after_q m c) t d
theorem before_d (c : Dev nD) (t : Fin cfg0.N) (d) : (dats m 0 c).before 1 t d = iblk m c 1 t :=
  found_d m (dats m 0 c) (A_eq m c 1) (after_d m c) t d
theorem before_mask (c : Dev nD) (t : Fin cfg0.N) (d) : (dats m 0 c).before 2 t d = iblk m c 2 t :=
  found_mask m (dats m 0 c) (A_eq m c 2) (after_mask m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_d, before_mask]
  rw [show (dats m 0 c).Φ t.succ = (dats m 0 c).Φ t.castSucc from rfl,
    show (dats m 0 c).owesAt () t.succ = (dats m 0 c).owesAt () t.castSucc from rfl,
    after_q, after_d, after_mask, after_score]
  iintro ⟨HΦ, Ho, ⟨%d0, H0⟩, ⟨%d1, H1⟩, ⟨%d2, H2⟩, ⟨%d3, H3⟩⟩
  iapply (body_triple c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; at the end each array of the region holds what the proof data
    say and every other unscoped buffer what the host operations leave of the region's exit contents. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh) (hkeep := tail_keeps)
    (hmain := hmain m Variants.none) (hA := A_eq m) (hΦ := fun _ _ => rfl)

/-- The four argument arrays end as launched: three are inputs of the region, which never writes an input's array;
    the fourth bypasses it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans (A_eq m c 0)),
     ((h c).1 1).trans (((dats m 0 c).arrAt_in 1 rfl _).trans (A_eq m c 1)),
     ((h c).1 2).trans (((dats m 0 c).arrAt_in 2 rfl _).trans (A_eq m c 2)),
     ((h c).2 main_arg3 (Pipeline.mem_restRefs_of main_arg3 (by decide) (by decide))).trans (labels_kept m (dats m) c)⟩) (run_main m ρ)

end Cert.KernelIdeal.Run

end
-- ==== Proof.Blocks.lean ====
/-
  Where each block sits in its array, at grid point t = 8·n + j (n < 2, j < 8):
    the query block is rows 8j … 8j+7 of the query array;
    the document and mask blocks are slab n of theirs;
    the score block is (n, rows 8j … 8j+7, all 64 columns) of the score array.
  The sixteen score blocks tile the score array.
-/
import proofs.«120617_j15152644621119_2_alg».proof.Proof.KernelIdealRun
import Idealize.ShloMosaic.Lib.Pipeline.Value
import Idealize.ShloMosaic.Lib.ValueIdx

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable {F : FTy → Type} [FloatOps F]
variable (m : (ℓ : Loc nD τ sig) → Buf (Elt F) ℓ)

/-- The printed index maps over the sixteen points: n = t / 8 and j = t % 8. -/
theorem idx_facts : ∀ t : Fin cfg0.N,
    win0_0.index t (0 : Fin 3) = t.val % 8 ∧ win0_0.index t (1 : Fin 3) = 0 ∧ win0_0.index t (2 : Fin 3) = 0
    ∧ win0_1.index t (0 : Fin 4) = t.val / 8 ∧ win0_1.index t (1 : Fin 4) = 0 ∧ win0_1.index t (2 : Fin 4) = 0 ∧ win0_1.index t (3 : Fin 4) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = t.val % 8 ∧ win0_3.index t (2 : Fin 3) = 0 :=
  (by decide +kernel : ∀ t : Fin grid0.N, _)

theorem t_lt (t : Fin cfg0.N) : t.val < 16 := by
  have h : t.val < grid0.N := t.isLt
  rw [N_0] at h; exact h

/-- Entry (r, l, d) of the query block at point t is entry (8j + r, l, d) of the query array. -/
theorem q_block (c : Dev nD) (t : Fin cfg0.N) (r : Fin 8) (l : Fin 32) (d : Fin 128) :
    iblk m c 0 t (ix3 r l d)
      = m ((c : Thread nD τ).loc main_arg0) (ix3 (⟨8 * (t.val % 8) + r.val, by omega⟩ : Fin 64) l d) := by
  show V m c main_arg0 (((cfg0.win 0).blk t).view.emb (ix3 r l d)) = _
  refine congrArg (m ((c : Thread nD τ).loc main_arg0)) ?_
  obtain ⟨e0, e1, e2, -⟩ := idx_facts t
  funext a; apply Fin.ext
  match a with
  | ⟨0, _⟩ => show win0_0.index t (0 : Fin 3) * 8 + 1 * r.val = 8 * (t.val % 8) + r.val; omega
  | ⟨1, _⟩ => show win0_0.index t (1 : Fin 3) * 32 + 1 * l.val = l.val; omega
  | ⟨2, _⟩ => show win0_0.index t (2 : Fin 3) * 128 + 1 * d.val = d.val; omega

/-- Entry (0, b, s, d) of the document block at point t is entry (n, b, s, d) of the document array. -/
theorem d_block (c : Dev nD) (t : Fin cfg0.N) (b : Fin 64) (s : Fin 256) (d : Fin 128) :
    iblk m c 1 t (ix4 (0 : Fin 1) b s d)
      = m ((c : Thread nD τ).loc main_arg1) (ix4 (⟨t.val / 8, by have := t_lt t; omega⟩ : Fin 2) b s d) := by
  show V m c main_arg1 (((cfg0.win 1).blk t).view.emb (ix4 (0 : Fin 1) b s d)) = _
  refine congrArg (m ((c : Thread nD τ).loc main_arg1)) ?_
  obtain ⟨-, -, -, e0, e1, e2, e3, -⟩ := idx_facts t
  funext a; apply Fin.ext
  match a with
  | ⟨0, _⟩ => show win0_1.index t (0 : Fin 4) * 1 + 1 * 0 = t.val / 8; omega
  | ⟨1, _⟩ => show win0_1.index t (1 : Fin 4) * 64 + 1 * b.val = b.val; omega
  | ⟨2, _⟩ => show win0_1.index t (2 : Fin 4) * 256 + 1 * s.val = s.val; omega
  | ⟨3, _⟩ => show win0_1.index t (3 : Fin 4) * 128 + 1 * d.val = d.val; omega

/-- Entry (0, b, s) of the mask block at point t is entry (n, b, s) of the mask array. -/
theorem mask_block (c : Dev nD) (t : Fin cfg0.N) (b : Fin 64) (s : Fin 256) :
    iblk m c 2 t (ix3 (0 : Fin 1) b s)
      = m ((c : Thread nD τ).loc main_arg2) (ix3 (⟨t.val / 8, by have := t_lt t; omega⟩ : Fin 2) b s) := by
  show V m c main_arg2 (((cfg0.win 2).blk t).view.emb (ix3 (0 : Fin 1) b s)) = _
  refine congrArg (m ((c : Thread nD τ).loc main_arg2)) ?_
  obtain ⟨-, -, -, -, -, -, -, e0, e1, e2, -⟩ := idx_facts t
  funext a; apply Fin.ext
  match a with
  | ⟨0, _⟩ => show win0_2.index t (0 : Fin 3) * 1 + 1 * 0 = t.val / 8; omega
  | ⟨1, _⟩ => show win0_2.index t (1 : Fin 3) * 64 + 1 * b.val = b.val; omega
  | ⟨2, _⟩ => show win0_2.index t (2 : Fin 3) * 256 + 1 * s.val = s.val; omega

/-- Entry (0, r, q) of the score block at point t sits at (n, 8j + r, q) of the score array. -/
theorem score_emb (t : Fin cfg0.N) (r : Fin 8) (q : Fin 64) :
    ((cfg0.win 3).blk t).view.emb (ix3 (0 : Fin 1) r q)
      = ix3 (⟨t.val / 8, by have := t_lt t; omega⟩ : Fin 2) (⟨8 * (t.val % 8) + r.val, by omega⟩ : Fin 64) q := by
  obtain ⟨-, -, -, -, -, -, -, -, -, -, e0, e1, e2⟩ := idx_facts t
  funext a; apply Fin.ext
  match a with
  | ⟨0, _⟩ => show win0_3.index t (0 : Fin 3) * 1 + 1 * 0 = t.val / 8; omega
  | ⟨1, _⟩ => show win0_3.index t (1 : Fin 3) * 8 + 1 * r.val = 8 * (t.val % 8) + r.val; omega
  | ⟨2, _⟩ => show win0_3.index t (2 : Fin 3) * 64 + 1 * q.val = q.val; omega

/-- An index of the score array is in point t's block iff each coordinate is in the block's range. -/
theorem mem_score_blk (t : Fin cfg0.N) (i : S2x64x64.Idx) :
    i ∈ ((cfg0.win 3).blk t).view.set ↔ ∀ a : Fin 3, win0_3.index t a * S1x8x64.size a ≤ (i a).val ∧ (i a).val < win0_3.index t a * S1x8x64.size a + S1x8x64.size a := by
  show i ∈ ((View.whole main_v0).slice (win0_3.rect t)).set ↔ _
  rw [View.set_slice_whole, Rect.mem_set_unit]
  exact Iff.rfl

/-- Every (n, j) is some point's. -/
theorem idx_onto : ∀ (q0 : Fin 2) (q1 : Fin 8), ∃ t : Fin cfg0.N, win0_3.index t = ![q0.val, q1.val, 0] :=
  (by decide +kernel : ∀ (q0 : Fin 2) (q1 : Fin 8), ∃ t : Fin grid0.N, win0_3.index t = ![q0.val, q1.val, 0])

/-- The score blocks cover the score array. -/
theorem score_covered (i : S2x64x64.Idx) :
    ∃ t : Fin cfg0.N, (cfg0.win 3).flush t = true ∧ i ∈ ((cfg0.win 3).blk t).view.set := by
  have hi0 : (i 0).val < 2 := (i 0).isLt
  have hi1 : (i 1).val < 64 := (i 1).isLt
  have hi2 : (i 2).val < 64 := (i 2).isLt
  obtain ⟨t, ht⟩ := idx_onto ⟨(i 0).val, hi0⟩ ⟨(i 1).val / 8, by omega⟩
  have q0 : win0_3.index t (0 : Fin 3) = (i 0).val := congrFun ht 0
  have q1 : win0_3.index t (1 : Fin 3) = (i 1).val / 8 := congrFun ht 1
  have q2 : win0_3.index t (2 : Fin 3) = 0 := congrFun ht 2
  refine ⟨t, flush0_3 t, ?_⟩
  rw [mem_score_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 8 ≤ (i 1).val ∧ (i 1).val < win0_3.index t (1 : Fin 3) * 8 + 8; omega
  | ⟨2, _⟩ => show win0_3.index t (2 : Fin 3) * 64 ≤ (i 2).val ∧ (i 2).val < win0_3.index t (2 : Fin 3) * 64 + 64; omega

end Cert.KernelIdeal.Run

end
-- ==== Proof.Loss.lean ====
/-
  The loss both programs compute from the score array S [2, 64, 64] and the label array L [64, 2], as ONE function.

  With idx = 0 … 63 (each index passed through jnp's wrap "idx < 0 ? idx + n : idx"):
    scores[b, n] = S[n, b, b]                       (a gather along the diagonal, transposed)
    kl = ( Σ_{b,n} exp(L[b,n]) · (L[b,n] − log_softmax(scores)[b,n]) ) / 64
    pred[b, 64·n + c] = S[n, b, c]                  (a transpose and a reshape to [64, 128])
    ce = −( Σ_b log_softmax(pred)[b, b] ) / 64
    loss = kl + 0.5 · ce
  log_softmax(x) = (x − max_row) − log Σ_row exp(x − max_row), the row maximum taken against −∞.
  Nothing here is opened by the proof: the kernel and the reference both end with exactly these operations, so
  their results are this function of their score arrays, and equal score arrays give equal losses.
-/
import proofs.«120617_j15152644621119_2_alg».proof.Proof.Gen.KernelIdeal

noncomputable section

namespace Cert.KernelIdeal.Tail

open Cert.KernelIdeal Cert.KernelIdeal.Gen Idealize.ShloMosaic Idealize.SL.Sem

variable {F : FTy → Type} [FloatOps F]

/-- 0 … 63. -/
abbrev iota64 : (⟨S64, .i32⟩ : BufTy).Contents (Elt F) := iotaInDim S64 32 0
/-- One word on all 64 places. -/
abbrev splat64 (w : BitVec 32) : (⟨S64, .i32⟩ : BufTy).Contents (Elt F) :=
  (broadcastInDim S64 ![] bcast_S_S64 : (⟨S_, .i32⟩ : BufTy).Contents (Elt F) → (⟨S64, .i32⟩ : BufTy).Contents (Elt F)) (constantI S_ 32 w)
/-- idx < 0 ? idx + n : idx, over idx = 0 … 63. -/
abbrev wrap64 (n : BitVec 32) : (⟨S64, .i32⟩ : BufTy).Contents (Elt F) :=
  (select : (⟨S64, .i1⟩ : BufTy).Contents (Elt F) → (⟨S64, .i32⟩ : BufTy).Contents (Elt F) → (⟨S64, .i32⟩ : BufTy).Contents (Elt F) → (⟨S64, .i32⟩ : BufTy).Contents (Elt F))
    ((cmpi .slt : (⟨S64, .i32⟩ : BufTy).Contents (Elt F) → (⟨S64, .i32⟩ : BufTy).Contents (Elt F) → (⟨S64, .i1⟩ : BufTy).Contents (Elt F)) (iota64 (F := F)) (splat64 (F := F) 0#32))
    ((addi : (⟨S64, .i32⟩ : BufTy).Contents (Elt F) → (⟨S64, .i32⟩ : BufTy).Contents (Elt F) → (⟨S64, .i32⟩ : BufTy).Contents (Elt F)) (iota64 (F := F)) (splat64 (F := F) n))
    (iota64 (F := F))
/-- A list of 64 words as a column. -/
abbrev col64 (v : (⟨S64, .i32⟩ : BufTy).Contents (Elt F)) : (⟨S64x1, .i32⟩ : BufTy).Contents (Elt F) :=
  (broadcastInDim S64x1 ![0] bcast_S64_S64x1_0 : (⟨S64, .i32⟩ : BufTy).Contents (Elt F) → (⟨S64x1, .i32⟩ : BufTy).Contents (Elt F)) v
/-- Two index lists side by side: row b is the pair (a b, a' b). -/
abbrev pairs (a a' : (⟨S64, .i32⟩ : BufTy).Contents (Elt F)) : (⟨S64x2, .i32⟩ : BufTy).Contents (Elt F) :=
  ((fun u v => concatenate S64x2 1 [⟨S64x1, u⟩, ⟨S64x1, v⟩] concatenates_S64x1_S64x1_S64x2_d1) : (⟨S64x1, .i32⟩ : BufTy).Contents (Elt F) → (⟨S64x1, .i32⟩ : BufTy).Contents (Elt F) → (⟨S64x2, .i32⟩ : BufTy).Contents (Elt F))
    (col64 (F := F) a) (col64 (F := F) a')

/-- log_softmax along the rows of a [64, 2] array. -/
abbrev logSoftmax2 (x : (⟨S64x2, .f32⟩ : BufTy).Contents (Elt F)) : (⟨S64x2, .f32⟩ : BufTy).Contents (Elt F) :=
  have v0 : (⟨S64, .f32⟩ : BufTy).Contents (Elt F) := Host.reduce FloatOps.maximumf x (constant S_ .f32 0xFF800000#32) reducesTo_S64x2_S64_d1 h_S_
  have v1 : (⟨S64, .f32⟩ : BufTy).Contents (Elt F) := broadcastInDim S64 ![] bcast_S_S64 (constant S_ .f32 0xFF800000#32)
  have v2 : (⟨S64, .f32⟩ : BufTy).Contents (Elt F) := maximumf v1 v0
  have v3 : (⟨S64x1, .f32⟩ : BufTy).Contents (Elt F) := broadcastInDim S64x1 ![0] bcast_S64_S64x1_0 v2
  have v4 : (⟨S64x2, .f32⟩ : BufTy).Contents (Elt F) := broadcastInDim S64x2 ![0, 1] bcast_S64x1_S64x2_0_1 v3
  have v5 : (⟨S64x2, .f32⟩ : BufTy).Contents (Elt F) := subf x v4
  have v6 : (⟨S64x2, .f32⟩ : BufTy).Contents (Elt F) := Host.exp v5
  have v7 : (⟨S64, .f32⟩ : BufTy).Contents (Elt F) := Host.reduceAdd v6 (constant S_ .f32 0x00000000#32) reducesTo_S64x2_S64_d1 h_S_
  have v8 : (⟨S64x1, .f32⟩ : BufTy).Contents (Elt F) := broadcastInDim S64x1 ![0] bcast_S64_S64x1_0 v7
  have v9 : (⟨S64x1, .f32⟩ : BufTy).Contents (Elt F) := Host.log v8
  have v10 : (⟨S64x2, .f32⟩ : BufTy).Contents (Elt F) := broadcastInDim S64x2 ![0, 1] bcast_S64x1_S64x2_0_1 v9
  subf v5 v10

/-- log_softmax along the rows of a [64, 128] array. -/
abbrev logSoftmax128 (x : (⟨S64x128, .f32⟩ : BufTy).Contents (Elt F)) : (⟨S64x128, .f32⟩ : BufTy).Contents (Elt F) :=
  have v0 : (⟨S64, .f32⟩ : BufTy).Contents (Elt F) := Host.reduce FloatOps.maximumf x (constant S_ .f32 0xFF800000#32) reducesTo_S64x128_S64_d1 h_S_
  have v1 : (⟨S64, .f32⟩ : BufTy).Contents (Elt F) := broadcastInDim S64 ![] bcast_S_S64 (constant S_ .f32 0xFF800000#32)
  have v2 : (⟨S64, .f32⟩ : BufTy).Contents (Elt F) := maximumf v1 v0
  have v3 : (⟨S64x1, .f32⟩ : BufTy).Contents (Elt F) := broadcastInDim S64x1 ![0] bcast_S64_S64x1_0 v2
  have v4 : (⟨S64x128, .f32⟩ : BufTy).Contents (Elt F) := broadcastInDim S64x128 ![0, 1] bcast_S64x1_S64x128_0_1 v3
  have v5 : (⟨S64x128, .f32⟩ : BufTy).Contents (Elt F) := subf x v4
  have v6 : (⟨S64x128, .f32⟩ : BufTy).Contents (Elt F) := Host.exp v5
  have v7 : (⟨S64, .f32⟩ : BufTy).Contents (Elt F) := Host.reduceAdd v6 (constant S_ .f32 0x00000000#32) reducesTo_S64x128_S64_d1 h_S_
  have v8 : (⟨S64x1, .f32⟩ : BufTy).Contents (Elt F) := broadcastInDim S64x1 ![0] bcast_S64_S64x1_0 v7
  have v9 : (⟨S64x1, .f32⟩ : BufTy).Contents (Elt F) := Host.log v8
  have v10 : (⟨S64x128, .f32⟩ : BufTy).Contents (Elt F) := broadcastInDim S64x128 ![0, 1] bcast_S64x1_S64x128_0_1 v9
  subf v5 v10

/-- The loss of a score array and a label array. -/
def loss (S : (⟨S2x64x64, .f32⟩ : BufTy).Contents (Elt F)) (L : (⟨S64x2, .f32⟩ : BufTy).Contents (Elt F)) : (⟨S_, .f32⟩ : BufTy).Contents (Elt F) :=
  have v15 : (⟨S2x64, .f32⟩ : BufTy).Contents (Elt F) := Host.gather gather_S2x64x64_S64x2_S2x64_0_12_n_n_12_1_211 S (pairs (F := F) (wrap64 (F := F) 64#32) (wrap64 (F := F) 64#32))
  have v16 : (⟨S64x2, .f32⟩ : BufTy).Contents (Elt F) := transpose S64x2 [1, 0] v15 transposes_S2x64_S64x2_1_0
  have v17 : (⟨S64x2, .f32⟩ : BufTy).Contents (Elt F) := logSoftmax2 v16
  have v18 : (⟨S64x2, .f32⟩ : BufTy).Contents (Elt F) := Host.exp L
  have v19 : (⟨S64x2, .f32⟩ : BufTy).Contents (Elt F) := subf L v17
  have v20 : (⟨S64x2, .f32⟩ : BufTy).Contents (Elt F) := mulf v18 v19
  have v21 : (⟨S_, .f32⟩ : BufTy).Contents (Elt F) := Host.reduceAdd v20 (constant S_ .f32 0x00000000#32) reducesTo_S64x2_S_d0_1 h_S_
  have v22 : (⟨S_, .f32⟩ : BufTy).Contents (Elt F) := Host.divf v21 (constant S_ .f32 0x42800000#32)
  have v23 : (⟨S64x2x64, .f32⟩ : BufTy).Contents (Elt F) := transpose S64x2x64 [1, 0, 2] S transposes_S2x64x64_S64x2x64_1_0_2
  have v24 : (⟨S64x128, .f32⟩ : BufTy).Contents (Elt F) := shapeCast S64x128 v23 shapeCasts_S64x2x64_S64x128
  have v25 : (⟨S64x128, .f32⟩ : BufTy).Contents (Elt F) := logSoftmax128 v24
  have v39 : (⟨S64, .f32⟩ : BufTy).Contents (Elt F) := Host.gather gather_S64x128_S64x2_S64_n_01_n_n_01_1_11 v25 (pairs (F := F) (wrap64 (F := F) 64#32) (wrap64 (F := F) 128#32))
  have v40 : (⟨S_, .f32⟩ : BufTy).Contents (Elt F) := Host.reduceAdd v39 (constant S_ .f32 0x00000000#32) reducesTo_S64_S_d0 h_S_
  have v41 : (⟨S_, .f32⟩ : BufTy).Contents (Elt F) := Host.divf v40 (constant S_ .f32 0x42800000#32)
  have v42 : (⟨S_, .f32⟩ : BufTy).Contents (Elt F) := Host.negf v41
  have v43 : (⟨S_, .f32⟩ : BufTy).Contents (Elt F) := mulf (constant S_ .f32 0x3F000000#32) v42
  addf v22 v43

end Cert.KernelIdeal.Tail

end
-- ==== Proof.KernelResult.lean ====
/-
  What the kernel's @main leaves in its result buffer: the loss of the score array as the region leaves it
  and of the label array as launched. The host operations after the region are read off one by one; each
  reads buffers the earlier ones wrote, the score array, or the label array, and the composite is `Tail.loss`.
-/
import proofs.«120617_j15152644621119_2_alg».proof.Proof.KernelIdealRun
import proofs.«120617_j15152644621119_2_alg».proof.Proof.Loss
import Idealize.ShloMosaic.Lib.StableHlo.Run

set_option maxRecDepth 65536

noncomputable section

namespace Cert.KernelIdeal.Run

open Cert.KernelIdeal Cert.KernelIdeal.Gen
open Idealize.ShloMosaic Idealize.ShloMosaic.TcCoe Idealize.ShloMosaic.StableHlo
open Idealize.SL Idealize.SL.Sem
open Idealize.ShloMosaic.Pipeline (Dat)

variable {F : FTy → Type} [FloatOps F]
variable (m : (ℓ : Loc nD τ sig) → Buf (Elt F) ℓ)

/-- At the region's exit the score array's buffer holds what the proof data say, -/
theorem exit_scores (c : Dev nD) :
    Pipeline.withArrays spec0 c (V0 m c) (fun w => (dats m 0 c).arrAt w cfg0.N) (Proc.devRef .tc main_v0) = (dats m 0 c).arrAt 3 cfg0.N :=
  Pipeline.withArrays_arr spec0 launch0.win.arr_inj c (V0 m c) (fun w => (dats m 0 c).arrAt w cfg0.N) 3

/-- and the label array's, which the region never sees, what it was launched with. -/
theorem exit_labels (c : Dev nD) :
    Pipeline.withArrays spec0 c (V0 m c) (fun w => (dats m 0 c).arrAt w cfg0.N) (Proc.devRef .tc main_arg3) = m ((c : Thread nD τ).loc main_arg3) :=
  (Pipeline.withArrays_of_ne spec0 c (V0 m c) _ main_arg3 (by exact (by decide : ∀ w, Pipeline.arrRef spec0 w ≠ main_arg3))).trans rfl

set_option maxHeartbeats 4000000 in
/-- The result buffer after the host operations. -/
theorem result_eq (c : Dev nD) :
    Pipeline.afterTail₀ cfgs (dats m) 0 (V0 m) tailOps c main_v44
      = Tail.loss ((dats m 0 c).arrAt 3 cfg0.N) (m ((c : Thread nD τ).loc main_arg3)) := by
  unfold Pipeline.afterTail₀
  have h0 := exit_scores m c
  have h3 := exit_labels m c
  generalize hW : Pipeline.withArrays (cfgs (0 : Fin 1)).spec c (V0 m c) (fun w => (dats m 0 c).arrAt w (cfgs (0 : Fin 1)).N) = W
  replace h0 : W (Proc.devRef .tc main_v0) = (dats m 0 c).arrAt 3 cfg0.N := by rw [← hW]; exact h0
  replace h3 : W (Proc.devRef .tc main_arg3) = m ((c : Thread nD τ).loc main_arg3) := by rw [← hW]; exact h3
  simp only [tailOps, hostOps1, hostOps1_1, hostOps1_2, hostOps1_3, hostOps1_4, List.flatten_cons, List.flatten_nil, List.append_nil,
    List.cons_append, List.nil_append]
  after_results_simp
  rw [h0, h3]
  rfl

end Cert.KernelIdeal.Run

end
-- ==== Proof.MaxSimSpec.lean ====
/-
  MaxSim scores as one function of the query, document and mask arrays.

  A query token (b, l) is a vector over 128 features; it is divided by its Euclidean norm, the norm floored at
  1e-12. A masked document (n, b) has, for each feature d, the column of its 256 tokens' entries (each entry the
  document's times the mask's integer read as a real); each column is divided by ITS Euclidean norm, floored the
  same way — the documents are normalised along the token axis, not along the features. The score of query bq
  against document (n, bd) is the sum over the query's 32 tokens of the largest inner product (over the 128
  features) of that token with a token of the document; "largest" is a fold of max from -∞ over the 256 tokens.
  All of it on the extended reals.
-/
import Idealize.ShloMosaic.PureOps.Ideal
import Idealize.ShloMosaic.Lib.ValueIdx

noncomputable section

namespace Cert.MaxSim

open Idealize.ShloMosaic Idealize.ShloMosaic.ValueIdx

/-- The floor of a norm: 1e-12 as the programs spell it. -/
abbrev eps : EReal := Ideal.ofBits .f32 0x2B8CBCCC#32
/-- -∞ as the programs spell it: where a maximum starts. -/
abbrev negInf : EReal := Ideal.ofBits .f32 0xFF800000#32

/-- Entry `k` of the vector `v` divided by its Euclidean norm floored at `eps`. -/
def unitAt {n : Nat} (v : Fin n → EReal) (k : Fin n) : EReal :=
  Ideal.div (v k) (max (Ideal.sqrt (∑ j : Fin n, v j * v j)) eps)

/-- A mask word read as a real. -/
abbrev maskVal (w : BitVec 32) : EReal := FloatOps.sitofp (F := Ideal) .f32 w

/-- Query token (b, l): its 128 features. -/
def qRow (x0 : (⟨3, ![64, 32, 128]⟩ : Shape).Idx → EReal) (b : Fin 64) (l : Fin 32) : Fin 128 → EReal :=
  fun d => x0 (ix3 b l d)

/-- Feature d of masked document (n, b): its 256 tokens' entries. -/
def dCol (x1 : (⟨4, ![2, 64, 256, 128]⟩ : Shape).Idx → EReal) (x2 : (⟨3, ![2, 64, 256]⟩ : Shape).Idx → BitVec 32)
    (n : Fin 2) (b : Fin 64) (d : Fin 128) : Fin 256 → EReal :=
  fun t => x1 (ix4 n b t d) * maskVal (x2 (ix3 n b t))

/-- The normalised query entry (b, l, d). -/
def qHat (x0 : (⟨3, ![64, 32, 128]⟩ : Shape).Idx → EReal) (b : Fin 64) (l : Fin 32) (d : Fin 128) : EReal :=
  unitAt (qRow x0 b l) d

/-- The normalised document entry (n, b, t, d). -/
def dHat (x1 : (⟨4, ![2, 64, 256, 128]⟩ : Shape).Idx → EReal) (x2 : (⟨3, ![2, 64, 256]⟩ : Shape).Idx → BitVec 32)
    (n : Fin 2) (b : Fin 64) (t : Fin 256) (d : Fin 128) : EReal :=
  unitAt (dCol x1 x2 n b d) t

/-- MaxSim of query `bq` against document `(n, bd)` from normalised entries `Q`, `D`. -/
def score (Q : Fin 64 → Fin 32 → Fin 128 → EReal) (D : Fin 2 → Fin 64 → Fin 256 → Fin 128 → EReal)
    (n : Fin 2) (bq bd : Fin 64) : EReal :=
  ∑ l : Fin 32, (Finset.univ : Finset (Fin 256)).fold max negInf (fun t => ∑ d : Fin 128, Q bq l d * D n bd t d)

/-- The score array [2, 64, 64] of the three argument arrays. -/
def S (x0 : (⟨3, ![64, 32, 128]⟩ : Shape).Idx → EReal) (x1 : (⟨4, ![2, 64, 256, 128]⟩ : Shape).Idx → EReal)
    (x2 : (⟨3, ![2, 64, 256]⟩ : Shape).Idx → BitVec 32) : (⟨3, ![2, 64, 64]⟩ : Shape).Idx → EReal :=
  fun i => score (qHat x0) (dHat x1 x2) (i 0) (i 1) (i 2)

/-- What one grid point computes for one group of sixteen documents, from the point's 256 normalised query rows
    `A` (8 queries × 32 tokens, flattened) and its 64 normalised documents `B`: for query `r` of the eight and document
    `c` of group `k`, the sum over the query's tokens of the largest inner product with a token of the document. -/
def groupScore (A : (⟨2, ![256, 128]⟩ : Shape).Idx → EReal) (B : (⟨3, ![64, 256, 128]⟩ : Shape).Idx → EReal)
    (k : Fin 4) (r : Fin 8) (c : Fin 16) : EReal :=
  ∑ l : Fin 32, (Finset.univ : Finset (Fin 256)).fold max negInf
    (fun t => ∑ d : Fin 128, A (ix2 ⟨32 * r.val + l.val, by omega⟩ d) * B (ix3 ⟨16 * k.val + c.val, by omega⟩ t d))

end Cert.MaxSim

end
-- ==== Proof.Normalize.lean ====
/-
  Both programs' normalised entries are one function of the argument arrays: "entry k of a vector divided by the
  vector's Euclidean norm, the norm floored at 1e-12".

  For the queries the vector is a token's row of 128 features: the kernel's block of 8 queries × 32 tokens, squared,
  summed along the features, rooted, floored and divided into the block, then flattened to 256 rows (row 32r + l
  is token (r, l)); the reference does the same on the whole [64, 32, 128] array. For the documents the vector is,
  for a fixed document and feature, the COLUMN of the 256 tokens' masked entries (the slab's entry times the mask's
  integer read as a real): both programs sum the squares along the token axis, so each (document, feature) column
  is divided by its own floored norm. The narrowing to sixteen bits that the kernel applies to the queries is the
  identity on the extended reals, and the host's sum starts from the word 0, which is the real 0.
-/
import Idealize.ShloMosaic.Lib.ValueIdx
import Idealize.ShloMosaic.Lib.Pipeline.Value
import Idealize.ShloMosaic.Lib.ValueLayout
import Idealize.ShloMosaic.PureOps.Ideal.Laws
import proofs.«120617_j15152644621119_2_alg».proof.Proof.MaxSimSpec
import proofs.«120617_j15152644621119_2_alg».proof.Proof.Gen.KernelIdeal.Skeleton
import proofs.«120617_j15152644621119_2_alg».proof.Proof.RefReadP

noncomputable section

namespace Cert.MaxSim.Normalize

open Cert.KernelIdeal Cert.KernelIdeal.Gen Cert.ReferenceIdeal.ReadP Cert.MaxSim Idealize.ShloMosaic Idealize.ShloMosaic.ValueIdx

/-! ## The kernel's two sums of squares, read at an index -/

/-- A sum along the features of an [8, 32, 128] block, at (r, l): the sum over the 128 features of the block at
    (r, l, ·). -/
theorem sum_features (src : FVec Ideal Cert.KernelIdeal.S8x32x128 .f32)
    (h : Cert.KernelIdeal.S8x32x128.Reduces [2] Cert.KernelIdeal.S8x32) (hφ : FKind.Formats .f32)
    (hacc : (0x00000000#32 : BitVec 32) = FKind.add.neutral .f32 hφ) (r : Fin 8) (l : Fin 32) :
    multiReduction (F := Ideal) .add [2] Cert.KernelIdeal.S8x32 src 0x00000000#32 h hφ hacc (ix2 r l)
      = ∑ j : Fin 128, src (ix3 r l j) := by
  refine (Ideal.multiReduction_add_single src 0x00000000#32 h hφ hacc (ix2 r l)).trans ?_
  refine Finset.sum_congr rfl fun j _ => congrArg src ?_
  funext a
  refine Fin.ext ?_
  match a with
  | ⟨0, _⟩ => rfl
  | ⟨1, _⟩ => rfl
  | ⟨2, _⟩ => rfl

/-- A sum along the tokens of a [64, 256, 128] block, at (b, d): the sum over the 256 tokens of the block at
    (b, ·, d). -/
theorem sum_tokens (src : FVec Ideal Cert.KernelIdeal.S64x256x128 .f32)
    (h : Cert.KernelIdeal.S64x256x128.Reduces [1] Cert.KernelIdeal.S64x128) (hφ : FKind.Formats .f32)
    (hacc : (0x00000000#32 : BitVec 32) = FKind.add.neutral .f32 hφ) (b : Fin 64) (d : Fin 128) :
    multiReduction (F := Ideal) .add [1] Cert.KernelIdeal.S64x128 src 0x00000000#32 h hφ hacc (ix2 b d)
      = ∑ t : Fin 256, src (ix3 b t d) := by
  refine (Ideal.multiReduction_add_single src 0x00000000#32 h hφ hacc (ix2 b d)).trans ?_
  refine Finset.sum_congr rfl fun t _ => congrArg src ?_
  funext a
  refine Fin.ext ?_
  match a with
  | ⟨0, _⟩ => rfl
  | ⟨1, _⟩ => rfl
  | ⟨2, _⟩ => rfl

/-! ## The kernel's masked slab, read at an index -/

/-- The slab with its unit axis dropped, times the mask (unit axis dropped, read as reals, spread over the features),
    at (b, t, d): the slab's entry at (0, b, t, d) times the mask word at (0, b, t) read as a real. -/
theorem masked_apply (x1 : Vec Ideal Cert.KernelIdeal.S1x64x256x128 .f32) (x2 : Vec Ideal Cert.KernelIdeal.S1x64x256 .i32)
    (h1 : Cert.KernelIdeal.S1x64x256x128.ShapeCasts Cert.KernelIdeal.S64x256x128)
    (h2 : Cert.KernelIdeal.S1x64x256.ShapeCasts Cert.KernelIdeal.S64x256)
    (h3 : Cert.KernelIdeal.S64x256.ShapeCasts Cert.KernelIdeal.S64x256x1)
    (h4 : Cert.KernelIdeal.S64x256x1.Broadcasts Cert.KernelIdeal.S64x256x128)
    (b : Fin 64) (t : Fin 256) (d : Fin 128) :
    mulf (F := Ideal) (shapeCast Cert.KernelIdeal.S64x256x128 x1 h1)
        (broadcastTo Cert.KernelIdeal.S64x256x128
          (shapeCast Cert.KernelIdeal.S64x256x1 (sitofp (F := Ideal) .f32 (shapeCast Cert.KernelIdeal.S64x256 x2 h2)) h3) h4)
        (ix3 b t d)
      = x1 (ix4 0 b t d) * maskVal (x2 (ix3 0 b t)) := by
  refine (mulf_apply _ _ _).trans ?_
  refine congrArg₂ (· * ·) ?_ ?_
  · exact shapeCast_1abc_abc_apply x1 h1 b t d
  · -- the broadcast over the features reads the unit column; the cast to a column reads (b, t)
    refine (broadcastTo_apply _ h4 _ (ix3 b t (0 : Fin 1)) ?_).trans ?_
    · intro a
      match a with
      | ⟨0, _⟩ => rfl
      | ⟨1, _⟩ => rfl
      | ⟨2, _⟩ => rfl
    refine (shapeCast_apply _ h3 _ (ix2 b t) ?_).trans ?_
    · rw [Shape.rowMajor_val_three, Shape.rowMajor_val_two]
      show b.val * 256 + t.val = (b.val * 256 + t.val) * 1 + 0
      omega
    refine (sitofp_apply _ _).trans ?_
    refine congrArg (FloatOps.sitofp (F := Ideal) .f32) ?_
    exact shapeCast_1ab_ab_apply x2 h2 b t

/-! ## The kernel's normalised entries -/

/-- Row 32r + l of the kernel's normalised query block is token (r, l)'s row divided by its floored norm. -/
theorem pay2_apply (x0 : Vec Ideal Cert.KernelIdeal.S8x32x128 .f32) (r : Fin 8) (l : Fin 32) (d : Fin 128) :
    k0_pay2 (F := Ideal) x0 (ix2 ⟨32 * r.val + l.val, by omega⟩ d) = unitAt (fun d' => x0 (ix3 r l d')) d := by
  unfold k0_pay2 unitAt
  -- the narrowing is the identity; the flattening reads (r, l, d)
  refine (truncf_apply (φ := .f32) (ψ := .bf16) _ bitsLt_bf16_f32 _).trans ?_
  refine (shapeCast_apply _ _ _ (ix3 r l d) ?_).trans ?_
  · rw [Shape.rowMajor_val_three, Shape.rowMajor_val_two]
    show (r.val * 32 + l.val) * 128 + d.val = (32 * r.val + l.val) * 128 + d.val
    omega
  refine (divf_apply _ _ _).trans ?_
  refine congrArg (Ideal.div (x0 (ix3 r l d))) ?_
  -- the divisor: the floored norm of row (r, l), spread over the features
  refine (broadcastTo_apply _ _ _ (ix3 r l (0 : Fin 1)) ?_).trans ?_
  · intro a
    match a with
    | ⟨0, _⟩ => rfl
    | ⟨1, _⟩ => rfl
    | ⟨2, _⟩ => rfl
  refine (maximumf_apply _ _ _).trans ?_
  refine congrArg₂ max ?_ rfl
  show Ideal.sqrt _ = Ideal.sqrt _
  refine congrArg Ideal.sqrt ?_
  refine (shapeCast_apply _ _ _ (ix2 r l) ?_).trans ?_
  · rw [Shape.rowMajor_val_three, Shape.rowMajor_val_two]
    show r.val * 32 + l.val = (r.val * 32 + l.val) * 1 + 0
    omega
  exact sum_features (mulf x0 x0) _ _ _ r l

/-- Entry (b, t, d) of the kernel's normalised documents is the masked column (b, ·, d) divided by its floored norm. -/
theorem pay3_apply (x1 : Vec Ideal Cert.KernelIdeal.S1x64x256x128 .f32) (x2 : Vec Ideal Cert.KernelIdeal.S1x64x256 .i32)
    (b : Fin 64) (t : Fin 256) (d : Fin 128) :
    k0_pay3 (F := Ideal) x1 x2 (ix3 b t d) = unitAt (fun t' => x1 (ix4 0 b t' d) * maskVal (x2 (ix3 0 b t'))) t := by
  unfold k0_pay3 unitAt
  refine (divf_apply _ _ _).trans ?_
  refine congrArg₂ Ideal.div (masked_apply x1 x2 _ _ _ _ b t d) ?_
  -- the divisor: the floored norm of column (b, d), spread over the tokens
  refine (broadcastTo_apply _ _ _ (ix3 b (0 : Fin 1) d) ?_).trans ?_
  · intro a
    match a with
    | ⟨0, _⟩ => rfl
    | ⟨1, _⟩ => rfl
    | ⟨2, _⟩ => rfl
  refine (maximumf_apply _ _ _).trans ?_
  refine congrArg₂ max ?_ rfl
  show Ideal.sqrt _ = Ideal.sqrt _
  refine congrArg Ideal.sqrt ?_
  refine (shapeCast_apply _ _ _ (ix2 b d) ?_).trans ?_
  · rw [Shape.rowMajor_val_three, Shape.rowMajor_val_two]
    show b.val * 128 + d.val = (b.val * 1 + 0) * 128 + d.val
    omega
  refine (sum_tokens _ _ _ _ b d).trans ?_
  refine Finset.sum_congr rfl fun j _ => ?_
  refine (mulf_apply _ _ _).trans ?_
  exact congrArg₂ (· * ·) (masked_apply x1 x2 _ _ _ _ b j d) (masked_apply x1 x2 _ _ _ _ b j d)

/-! ## The reference's normalised entries -/

/-- The reference's normalised query array at (b, l, d) is the specification's. -/
theorem ref_q (x0 : (⟨Cert.ReferenceIdeal.S64x32x128, .f32⟩ : BufTy).Contents (Elt Ideal)) (b : Fin 64) (l : Fin 32) (d : Fin 128) :
    val_main_v4 (F := Ideal) x0 (ix3 b l d) = qHat x0 b l d := by
  unfold qHat unitAt qRow
  rw [val_main_v4_apply, val_main_v3_apply, val_main_v2_apply, val_main_v0_apply, val_main_v1_apply, val_main_cst_apply,
    val_main_call0_v2_apply, val_main_call0_v1_apply, val_main_call0_cst_apply]
  -- the index the chain reads the squares at is (b, l, k)
  have e : ∀ k : Fin 128, idx_main_call0_v1 (idx_main_call0_v2 (idx_main_v3 (ix3 b l d))) k = ix3 b l k := fun k =>
    funext fun a => Fin.ext (by match a with | ⟨0, _⟩ => rfl | ⟨1, _⟩ => rfl | ⟨2, _⟩ => rfl)
  simp only [val_main_call0_v0_apply, e, Ideal.hostDivf_def, Ideal.maximumf_def, Ideal.hostUnary_sqrt_def, Ideal.mulf_def,
    Ideal.ofBits_def, Ideal.ofBits_zero_f32, zero_add]

/-- The reference's masked documents at (n, b, t, d): the entry times the mask word read as a real. -/
theorem ref_masked (x1 : (⟨Cert.ReferenceIdeal.S2x64x256x128, .f32⟩ : BufTy).Contents (Elt Ideal))
    (x2 : (⟨Cert.ReferenceIdeal.S2x64x256, .i32⟩ : BufTy).Contents (Elt Ideal)) (n : Fin 2) (b : Fin 64) (t : Fin 256) (d : Fin 128) :
    val_main_v8 (F := Ideal) x1 x2 (ix4 n b t d) = x1 (ix4 n b t d) * maskVal (x2 (ix3 n b t)) := by
  rw [val_main_v8_apply, val_main_v7_apply, val_main_v6_apply, val_main_v5_apply]
  have e : idx_main_v5 (idx_main_v7 (ix4 n b t d)) = ix3 n b t :=
    funext fun a => Fin.ext (by match a with | ⟨0, _⟩ => rfl | ⟨1, _⟩ => rfl | ⟨2, _⟩ => rfl)
  rw [e]
  rfl

/-- The reference's normalised document array at (n, b, t, d) is the specification's. -/
theorem ref_d (x1 : (⟨Cert.ReferenceIdeal.S2x64x256x128, .f32⟩ : BufTy).Contents (Elt Ideal))
    (x2 : (⟨Cert.ReferenceIdeal.S2x64x256, .i32⟩ : BufTy).Contents (Elt Ideal)) (n : Fin 2) (b : Fin 64) (t : Fin 256) (d : Fin 128) :
    val_main_v13 (F := Ideal) x1 x2 (ix4 n b t d) = dHat x1 x2 n b t d := by
  unfold dHat unitAt dCol
  rw [val_main_v13_apply, val_main_v12_apply, val_main_v11_apply, val_main_v9_apply, val_main_v10_apply, val_main_cst_0_apply,
    val_main_call1_v2_apply, val_main_call1_v1_apply, val_main_call1_cst_apply, ref_masked]
  -- the index the chain reads the squares at is (n, b, k, d)
  have e : ∀ k : Fin 256, idx_main_call1_v1 (idx_main_call1_v2 (idx_main_v12 (ix4 n b t d))) k = ix4 n b k d := fun k =>
    funext fun a => Fin.ext (by match a with | ⟨0, _⟩ => rfl | ⟨1, _⟩ => rfl | ⟨2, _⟩ => rfl | ⟨3, _⟩ => rfl)
  simp only [val_main_call1_v0_apply, e, ref_masked, Ideal.hostDivf_def, Ideal.maximumf_def, Ideal.hostUnary_sqrt_def,
    Ideal.mulf_def, Ideal.ofBits_def, Ideal.ofBits_zero_f32, zero_add]

end Cert.MaxSim.Normalize

end
-- ==== Proof.Scores.lean ====
/-
  The score stage of MaxSim, on both sides, is the specification's sum of maxima of inner products.

  The kernel. At one grid point the body holds 256 normalised query rows A (8 queries × 32 tokens, row 32·r + l
  being token l of query r) and 64 normalised documents B of 256 tokens each, every token a vector over 128
  features. For each of four groups of sixteen documents it takes the sixteen documents from 16·k on, lays their
  tokens out as 4096 rows (row 256·c + t being token t of document c of the group), transposes, and multiplies:
  entry (q, p) of the product is the inner product ∑_d A(q, d) · B(16·k + c, t, d) with p = 256·c + t, the
  accumulator being zero. Read as [256, 16, 256] the product is maximised over its last axis from -∞ (the best
  token of document c for query row q), read as [8, 32, 16] the maxima are summed over the middle axis (the
  query's 32 tokens). So at (r, c) a group's value is
      ∑_l max_t ∑_d A(32·r + l, d) · B(16·k + c, t, d),
  the specification's `groupScore A B k r c`. The four groups are one computation at four offsets, proved once
  (`groupBody_apply`) and read off four times; three of the four values get a leading unit axis before they are
  stored, which changes nothing at (0, r, c).

  The reference. Its contraction pairs documents with queries in the other order and lays the result out as
  (n, bd, t, bq, l); it is then transposed to (n, bq, bd, l, t), maximised over t from -∞ and summed over l from
  0. Multiplication of extended reals commutes, so at (n, bq, bd) this is
      ∑_l max_t ∑_d Q(bq, l, d) · D(n, bd, t, d),
  the specification's `score` of the reference's own normalised queries Q and documents D.
-/
import proofs.«120617_j15152644621119_2_alg».proof.Proof.MaxSimSpec
import proofs.«120617_j15152644621119_2_alg».proof.Proof.Gen.KernelIdeal.Skeleton
import proofs.«120617_j15152644621119_2_alg».proof.Proof.RefReadP
import Idealize.ShloMosaic.Lib.ValueIdx
import Idealize.ShloMosaic.Lib.Pipeline.Value
import Idealize.ShloMosaic.Lib.ValueLayout
import Idealize.ShloMosaic.PureOps.Ideal.Laws

noncomputable section

namespace Cert.MaxSim.Scores

open Cert.KernelIdeal Cert.KernelIdeal.Gen Cert.ReferenceIdeal.ReadP Cert.MaxSim Idealize.ShloMosaic
  Idealize.ShloMosaic.ValueIdx

/-! ## The kernel's operations, one at a time, read at an index -/

/-- The lane sum over the 32 tokens of a query, read at (r, c). -/
theorem sumTokens_apply (X : FVec Ideal S8x32x16 .f32) (h : S8x32x16.Reduces [1] S8x16)
    (hφ : FKind.Formats .f32) (hacc : (0x00000000#32 : BitVec 32) = FKind.add.neutral .f32 hφ) (r : Fin 8) (c : Fin 16) :
    multiReduction (F := Ideal) .add [1] S8x16 X 0x00000000#32 h hφ hacc (ix2 r c) = ∑ l : Fin 32, X (ix3 r l c) := by
  refine (Ideal.multiReduction_add_single X 0x00000000#32 h hφ hacc (ix2 r c)).trans ?_
  refine Finset.sum_congr rfl fun l _ => congrArg X (funext fun a => Fin.ext ?_)
  match a with
  | ⟨0, _⟩ => rfl
  | ⟨1, _⟩ => rfl
  | ⟨2, _⟩ => rfl

/-- The maximum over the 256 tokens of a document, read at (q, c). -/
theorem maxTokens_apply (Z : FVec Ideal S256x16x256 .f32) (h : S256x16x256.Reduces [2] S256x16)
    (hφ : FKind.Formats .f32) (hacc : (0xFF800000#32 : BitVec 32) = FKind.maximumf.neutral .f32 hφ) (q : Fin 256) (c : Fin 16) :
    multiReduction (F := Ideal) .maximumf [2] S256x16 Z 0xFF800000#32 h hφ hacc (ix2 q c)
      = (Finset.univ : Finset (Fin 256)).fold max negInf (fun t => Z (ix3 q c t)) := by
  refine (Ideal.multiReduction_maximumf_single Z 0xFF800000#32 h hφ hacc (ix2 q c)).trans ?_
  refine congrArg (fun f => (Finset.univ : Finset (Fin 256)).fold max negInf f) (funext fun t => ?_)
  refine congrArg Z (funext fun a => Fin.ext ?_)
  match a with
  | ⟨0, _⟩ => rfl
  | ⟨1, _⟩ => rfl
  | ⟨2, _⟩ => rfl

/-- The query operand's row coordinate under the product's dimension numbers is the output's row. -/
theorem dot_lhs_row (i : S256x4096.Idx) (k : dot_S256x128_S128x4096_S256x4096_1_0_0_1_n_n.contr.Idx) :
    (dot_S256x128_S128x4096_S256x4096_1_0_0_1_n_n.lhsIdx i k 0).val = (i 0).val := by
  unfold DotDims.lhsIdx
  rw [dif_neg (show ¬(0 : Fin S256x128.rank) ∈ dot_S256x128_S128x4096_S256x4096_1_0_0_1_n_n.lhsBatch by decide),
    dif_pos (show (0 : Fin S256x128.rank) ∈ dot_S256x128_S128x4096_S256x4096_1_0_0_1_n_n.lhsNonContracting by decide)]
  rfl
/-- The document operand's column coordinate is the output's column. -/
theorem dot_rhs_col (i : S256x4096.Idx) (k : dot_S256x128_S128x4096_S256x4096_1_0_0_1_n_n.contr.Idx) :
    (dot_S256x128_S128x4096_S256x4096_1_0_0_1_n_n.rhsIdx i k 1).val = (i 1).val := by
  unfold DotDims.rhsIdx
  rw [dif_neg (show ¬(1 : Fin S128x4096.rank) ∈ dot_S256x128_S128x4096_S256x4096_1_0_0_1_n_n.rhsBatch by decide),
    dif_pos (show (1 : Fin S128x4096.rank) ∈ dot_S256x128_S128x4096_S256x4096_1_0_0_1_n_n.rhsNonContracting by decide)]
  rfl

/-- The product of the 256 query rows with the transposed document tokens into a zero accumulator, read at (q, p):
    the inner product over the 128 features. -/
theorem rowsTimesCols_apply (A : FVec Ideal S256x128 .bf16) (W : FVec Ideal S128x4096 .bf16) (q : Fin 256) (p : Fin 4096) :
    matmul (F := Ideal) dot_S256x128_S128x4096_S256x4096_1_0_0_1_n_n none A W (constant (F := Ideal) S256x4096 .f32 0x00000000#32) (ix2 q p)
      = ∑ d : Fin 128, A (ix2 q d) * W (ix2 d p) := by
  simp only [matmul]
  rw [Ideal.matmul_constant_zero_apply, ← Equiv.sum_comp (contrEquiv1 dot_S256x128_S128x4096_S256x4096_1_0_0_1_n_n 128 rfl rfl).symm]
  refine Finset.sum_congr rfl fun d _ => ?_
  have hd := contrEquiv1_symm_val dot_S256x128_S128x4096_S256x4096_1_0_0_1_n_n 128 rfl rfl d
  have el : dot_S256x128_S128x4096_S256x4096_1_0_0_1_n_n.lhsIdx (ix2 q p) ((contrEquiv1 dot_S256x128_S128x4096_S256x4096_1_0_0_1_n_n 128 rfl rfl).symm d) = ix2 q d :=
    funext fun a => Fin.ext (by
      match a with
      | ⟨0, _⟩ => exact dot_lhs_row _ _
      | ⟨1, _⟩ => exact (dot_S256x128_S128x4096_S256x4096_1_0_0_1_n_n.lhsIdx_val_of_single rfl _ _).trans hd)
  have er : dot_S256x128_S128x4096_S256x4096_1_0_0_1_n_n.rhsIdx (ix2 q p) ((contrEquiv1 dot_S256x128_S128x4096_S256x4096_1_0_0_1_n_n 128 rfl rfl).symm d) = ix2 d p :=
    funext fun a => Fin.ext (by
      match a with
      | ⟨0, _⟩ => exact (dot_S256x128_S128x4096_S256x4096_1_0_0_1_n_n.rhsIdx_val_of_single rfl _ _).trans hd
      | ⟨1, _⟩ => exact dot_rhs_col _ _)
  rw [el, er]

/-- A slice of sixteen documents, its tokens flattened to 4096 rows, cast and transposed: column 256·c + t of the
    result is token t of document c of the slice, which is document off + c of the sixty-four. -/
theorem docCols_apply (off : Fin 3 → Nat) (k : Fin 4) (h0 : off 0 = 16 * k.val) (h1 : off 1 = 0) (h2 : off 2 = 0)
    (hsl : S64x256x128.Slices off S16x256x128) (hsc : S16x256x128.ShapeCasts S4096x128)
    (hlt : FTy.bits .bf16 < FTy.bits .f32) (htr : S4096x128.Transposes [1, 0] S128x4096)
    (B : FVec Ideal S64x256x128 .f32) (d : Fin 128) (c : Fin 16) (t : Fin 256) :
    transpose S128x4096 [1, 0]
        (truncf (F := Ideal) .bf16 (shapeCast S4096x128 (extractStridedSlice S16x256x128 off B hsl) hsc) hlt) htr
        (ix2 d (⟨256 * c.val + t.val, by omega⟩ : Fin 4096))
      = B (ix3 (⟨16 * k.val + c.val, by omega⟩ : Fin 64) t d) := by
  have hc := c.isLt
  have ht := t.isLt
  have hd := d.isLt
  have hk := k.isLt
  refine (transpose_apply _ _ _ _ (ix2 (⟨256 * c.val + t.val, by omega⟩ : Fin 4096) d)
    (fun b => match b with | ⟨0, _⟩ => rfl | ⟨1, _⟩ => rfl)).trans ?_
  refine (truncf_apply (φ := .f32) (ψ := .bf16) _ hlt _).trans ?_
  refine (shapeCast_apply _ _ _ (ix3 c t d)
    (by rw [Shape.rowMajor_val_two, Shape.rowMajor_val_three]
        show (c.val * 256 + t.val) * 128 + d.val = (256 * c.val + t.val) * 128 + d.val
        omega)).trans ?_
  exact extractStridedSlice_apply _ _ _ _ (ix3 (⟨16 * k.val + c.val, by omega⟩ : Fin 64) t d)
    (fun a => match a with
      | ⟨0, _⟩ => by show 16 * k.val + c.val = off 0 + c.val; omega
      | ⟨1, _⟩ => by show t.val = off 1 + t.val; omega
      | ⟨2, _⟩ => by show d.val = off 2 + d.val; omega)

/-! ## One group of sixteen documents -/

/-- One group's computation, from the slice of sixteen documents at `off` on: the products of the 256 query rows with
    the slice's 4096 token rows, the maximum over each document's 256 tokens, the sum over each query's 32 tokens. -/
def groupBody (off : Fin 3 → Nat) (hsl : S64x256x128.Slices off S16x256x128) (A : FVec Ideal S256x128 .bf16)
    (B : FVec Ideal S64x256x128 .f32) : FVec Ideal S8x16 .f32 :=
  multiReduction (F := Ideal) .add [1] S8x16
    (shapeCast S8x32x16
      (shapeCast S256x16x1
        (multiReduction (F := Ideal) .maximumf [2] S256x16
          (shapeCast S256x16x256
            (matmul (F := Ideal) dot_S256x128_S128x4096_S256x4096_1_0_0_1_n_n none A
              (transpose S128x4096 [1, 0]
                (truncf (F := Ideal) .bf16
                  (shapeCast S4096x128 (extractStridedSlice S16x256x128 off B hsl) shapeCasts_S16x256x128_S4096x128)
                  bitsLt_bf16_f32)
                transposes_S4096x128_p1_0_S128x4096)
              (constant (F := Ideal) S256x4096 .f32 0x00000000#32))
            shapeCasts_S256x4096_S256x16x256)
          0xFF800000#32 reduces_S256x16x256_S256x16 (.inl rfl) rfl)
        shapeCasts_S256x16_S256x16x1)
      shapeCasts_S256x16x1_S8x32x16)
    0x00000000#32 reduces_S8x32x16_S8x16 (.inl rfl) rfl

/-- The group's computation at (r, c) is the spec's group score. -/
theorem groupBody_apply (off : Fin 3 → Nat) (k : Fin 4) (h0 : off 0 = 16 * k.val) (h1 : off 1 = 0) (h2 : off 2 = 0)
    (hsl : S64x256x128.Slices off S16x256x128) (A : FVec Ideal S256x128 .bf16) (B : FVec Ideal S64x256x128 .f32)
    (r : Fin 8) (c : Fin 16) :
    groupBody off hsl A B (ix2 r c) = groupScore A B k r c := by
  have hr := r.isLt
  have hc := c.isLt
  unfold groupBody groupScore
  refine (sumTokens_apply _ _ _ _ r c).trans ?_
  refine Finset.sum_congr rfl fun l _ => ?_
  have hl := l.isLt
  -- row 32 r + l of the 256 is token l of query r
  refine (shapeCast_apply _ _ (ix3 r l c) (ix3 (⟨32 * r.val + l.val, by omega⟩ : Fin 256) c (0 : Fin 1))
    (by rw [Shape.rowMajor_val_three, Shape.rowMajor_val_three]
        show ((32 * r.val + l.val) * 16 + c.val) * 1 + 0 = (r.val * 32 + l.val) * 16 + c.val
        omega)).trans ?_
  refine (shapeCast_apply _ _ _ (ix2 (⟨32 * r.val + l.val, by omega⟩ : Fin 256) c)
    (by rw [Shape.rowMajor_val_two, Shape.rowMajor_val_three]
        show (32 * r.val + l.val) * 16 + c.val = ((32 * r.val + l.val) * 16 + c.val) * 1 + 0
        omega)).trans ?_
  refine (maxTokens_apply _ _ _ _ (⟨32 * r.val + l.val, by omega⟩ : Fin 256) c).trans ?_
  refine congrArg (fun f => (Finset.univ : Finset (Fin 256)).fold max negInf f) (funext fun t => ?_)
  have ht := t.isLt
  -- column 256 c + t of the 4096 is token t of document c
  refine (shapeCast_apply _ _ _ (ix2 (⟨32 * r.val + l.val, by omega⟩ : Fin 256) (⟨256 * c.val + t.val, by omega⟩ : Fin 4096))
    (by rw [Shape.rowMajor_val_two, Shape.rowMajor_val_three]
        show (32 * r.val + l.val) * 4096 + (256 * c.val + t.val) = ((32 * r.val + l.val) * 16 + c.val) * 256 + t.val
        omega)).trans ?_
  refine (rowsTimesCols_apply _ _ _ _).trans ?_
  refine Finset.sum_congr rfl fun d _ => ?_
  exact congrArg (A (ix2 (⟨32 * r.val + l.val, by omega⟩ : Fin 256) d) * ·)
    (docCols_apply off k h0 h1 h2 hsl _ _ _ B d c t)

/-! ## The four groups, and the unit axis three of them are stored through -/

/-- A leading unit axis added to an 8 × 16 array: entry (0, r, c) is entry (r, c). -/
theorem addUnit_apply (v : FVec Ideal S8x16 .f32) (h : S8x16.ShapeCasts S1x8x16) (r : Fin 8) (c : Fin 16) :
    shapeCast S1x8x16 v h (ix3 (0 : Fin 1) r c) = v (ix2 r c) :=
  shapeCast_apply v h _ (ix2 r c)
    (by rw [Shape.rowMajor_val_two, Shape.rowMajor_val_three]
        show r.val * 16 + c.val = (0 * 8 + r.val) * 16 + c.val
        omega)

theorem pay4_apply (v0 : Vec Ideal S8x32x128 .f32) (v11 : Vec Ideal S1x64x256x128 .f32) (v13 : Vec Ideal S1x64x256 .i32)
    (r : Fin 8) (c : Fin 16) :
    k0_pay4 (F := Ideal) v0 v11 v13 (ix2 r c)
      = groupScore (k0_pay2 (F := Ideal) v0) (k0_pay3 (F := Ideal) v11 v13) 0 r c :=
  groupBody_apply ![0, 0, 0] 0 rfl rfl rfl slices_S64x256x128_o0_0_0_S16x256x128 _ _ r c

theorem pay6_apply (v10 : FVec Ideal S256x128 .bf16) (v26 : FVec Ideal S64x256x128 .f32) (r : Fin 8) (c : Fin 16) :
    k0_pay6 (F := Ideal) v10 v26 (ix3 0 r c) = groupScore v10 v26 1 r c :=
  (addUnit_apply _ _ r c).trans
    (groupBody_apply ![16, 0, 0] 1 rfl rfl rfl slices_S64x256x128_o16_0_0_S16x256x128 v10 v26 r c)

theorem pay7_apply (v10 : FVec Ideal S256x128 .bf16) (v26 : FVec Ideal S64x256x128 .f32) (r : Fin 8) (c : Fin 16) :
    k0_pay7 (F := Ideal) v10 v26 (ix3 0 r c) = groupScore v10 v26 2 r c :=
  (addUnit_apply _ _ r c).trans
    (groupBody_apply ![32, 0, 0] 2 rfl rfl rfl slices_S64x256x128_o32_0_0_S16x256x128 v10 v26 r c)

theorem pay5_apply (v36 : FVec Ideal S8x16 .f32) (r : Fin 8) (c : Fin 16) :
    k0_pay5 (F := Ideal) v36 (ix3 0 r c) = v36 (ix2 r c) :=
  addUnit_apply v36 _ r c

theorem pay1_apply (v75 : FVec Ideal S8x16 .f32) (r : Fin 8) (c : Fin 16) :
    k0_pay1 (F := Ideal) v75 (ix3 0 r c) = v75 (ix2 r c) :=
  addUnit_apply v75 _ r c

theorem pay8_apply (v10 : FVec Ideal S256x128 .bf16) (v26 : FVec Ideal S64x256x128 .f32) (r : Fin 8) (c : Fin 16) :
    k0_pay8 (F := Ideal) v10 v26 (ix2 r c) = groupScore v10 v26 3 r c :=
  groupBody_apply ![48, 0, 0] 3 rfl rfl rfl slices_S64x256x128_o48_0_0_S16x256x128 v10 v26 r c

/-! ## The reference's score stage -/

/-- The reference's maximum over a document's 256 tokens, read at (n, bq, bd, l): the fold of max from -∞. -/
theorem ref_max_apply (x0 : (⟨Cert.ReferenceIdeal.S64x32x128, .f32⟩ : BufTy).Contents (Elt Ideal))
    (x1 : (⟨Cert.ReferenceIdeal.S2x64x256x128, .f32⟩ : BufTy).Contents (Elt Ideal))
    (x2 : (⟨Cert.ReferenceIdeal.S2x64x256, .i32⟩ : BufTy).Contents (Elt Ideal)) (n : Fin 2) (bq bd : Fin 64) (l : Fin 32) :
    val_main_v16 (F := Ideal) x0 x1 x2 (ix4 n bq bd l)
      = (Finset.univ : Finset (Fin 256)).fold max negInf
          (fun t => val_main_v15 (F := Ideal) x0 x1 x2 (ix5 n bq bd l t)) := by
  unfold val_main_v16
  generalize val_main_v15 (F := Ideal) x0 x1 x2 = y
  refine (Host.reduce_eq_fold_single (FloatOps.maximumf (F := Ideal) (φ := .f32)) y _ _ (by decide) _ (ix4 n bq bd l)).trans ?_
  refine congrArg (fun f => (Finset.univ : Finset (Fin 256)).fold max negInf f) (funext fun t => ?_)
  refine congrArg y (funext fun a => Fin.ext ?_)
  match a with
  | ⟨0, _⟩ => rfl
  | ⟨1, _⟩ => rfl
  | ⟨2, _⟩ => rfl
  | ⟨3, _⟩ => rfl
  | ⟨4, _⟩ => rfl

/-- The reference's products, read at (n, bq, bd, l, t): the inner product over the 128 features of query token
    (bq, l) with token t of document (n, bd). -/
theorem ref_dot_apply (x0 : (⟨Cert.ReferenceIdeal.S64x32x128, .f32⟩ : BufTy).Contents (Elt Ideal))
    (x1 : (⟨Cert.ReferenceIdeal.S2x64x256x128, .f32⟩ : BufTy).Contents (Elt Ideal))
    (x2 : (⟨Cert.ReferenceIdeal.S2x64x256, .i32⟩ : BufTy).Contents (Elt Ideal)) (n : Fin 2) (bq bd : Fin 64) (l : Fin 32)
    (t : Fin 256) :
    val_main_v15 (F := Ideal) x0 x1 x2 (ix5 n bq bd l t)
      = ∑ d : Fin 128, val_main_v4 (F := Ideal) x0 (ix3 bq l d) * val_main_v13 (F := Ideal) x1 x2 (ix4 n bd t d) := by
  rw [val_main_v15_apply, val_main_v14_apply]
  refine Finset.sum_congr rfl fun d _ => ?_
  rw [mul_comm]
  have el : lidx_main_v14 (idx_main_v15 (ix5 n bq bd l t)) d = ix4 n bd t d :=
    funext fun a => Fin.ext (by
      match a with
      | ⟨0, _⟩ => rfl
      | ⟨1, _⟩ => rfl
      | ⟨2, _⟩ => rfl
      | ⟨3, _⟩ => rfl)
  have er : ridx_main_v14 (idx_main_v15 (ix5 n bq bd l t)) d = ix3 bq l d :=
    funext fun a => Fin.ext (by
      match a with
      | ⟨0, _⟩ => rfl
      | ⟨1, _⟩ => rfl
      | ⟨2, _⟩ => rfl)
  rw [el, er]

theorem ref_scores (x0 : (⟨Cert.ReferenceIdeal.S64x32x128, .f32⟩ : BufTy).Contents (Elt Ideal))
    (x1 : (⟨Cert.ReferenceIdeal.S2x64x256x128, .f32⟩ : BufTy).Contents (Elt Ideal))
    (x2 : (⟨Cert.ReferenceIdeal.S2x64x256, .i32⟩ : BufTy).Contents (Elt Ideal)) (n : Fin 2) (bq bd : Fin 64) :
    val_main_v17 (F := Ideal) x0 x1 x2 (ix3 n bq bd)
      = score (fun b l d => val_main_v4 (F := Ideal) x0 (ix3 b l d))
          (fun n b t d => val_main_v13 (F := Ideal) x1 x2 (ix4 n b t d)) n bq bd := by
  rw [val_main_v17_apply, val_main_cst_2_apply]
  show Ideal.ofBits .f32 0x00000000#32 + _ = _
  rw [Ideal.ofBits_zero_f32, zero_add]
  unfold score
  refine Finset.sum_congr rfl fun l _ => ?_
  have e : idx_main_v17 (ix3 n bq bd) l = ix4 n bq bd l :=
    funext fun a => Fin.ext (by
      match a with
      | ⟨0, _⟩ => rfl
      | ⟨1, _⟩ => rfl
      | ⟨2, _⟩ => rfl
      | ⟨3, _⟩ => rfl)
  rw [e, ref_max_apply]
  exact congrArg (fun f => (Finset.univ : Finset (Fin 256)).fold max negInf f)
    (funext fun t => ref_dot_apply x0 x1 x2 n bq bd l t)

end Cert.MaxSim.Scores

end
-- ==== Proof.KernelValue.lean ====
/-
  The score array the kernel leaves is the score function of the three argument arrays.

  At grid point t = 8n + j the body stores four pieces into the 8 × 64 score block, piece k the sixteen columns
  16k … 16k+15; each piece is the group score of the point's normalised query rows and normalised documents, so
  entry (r, q) of the block is the group score of group q / 16 at (r, q % 16). The point's query rows are rows
  8j … 8j+7 of the query array and its documents are slab n, so that entry is the MaxSim score of query 8j + r
  against document (n, q): the block is block (n, j) of the score function. The sixteen blocks tile the array.
-/
import proofs.«120617_j15152644621119_2_alg».proof.Proof.KernelIdealRun
import proofs.«120617_j15152644621119_2_alg».proof.Proof.Blocks
import proofs.«120617_j15152644621119_2_alg».proof.Proof.KernelResult
import proofs.«120617_j15152644621119_2_alg».proof.Proof.MaxSimSpec
import proofs.«120617_j15152644621119_2_alg».proof.Proof.Normalize
import proofs.«120617_j15152644621119_2_alg».proof.Proof.Scores
import Idealize.ShloMosaic.Lib.Pipeline.Value
import Idealize.ShloMosaic.Lib.ValueIdx

set_option maxRecDepth 16384

noncomputable section

namespace Cert.KernelIdeal.Run

open Cert.KernelIdeal Cert.KernelIdeal.Gen Cert.MaxSim
open Idealize.ShloMosaic Idealize.ShloMosaic.TcCoe Idealize.ShloMosaic.ValueIdx
open Idealize.SL Idealize.SL.Sem
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Entry (0, r, q) of the score block, from the point's normalised query rows `A` and documents `B`: document q is
    document q % 16 of group q / 16. -/
def blockScore (A : (⟨2, ![256, 128]⟩ : Shape).Idx → EReal) (B : (⟨3, ![64, 256, 128]⟩ : Shape).Idx → EReal) (y : S1x8x64.Idx) : EReal :=
  groupScore A B ⟨(y 2).val / 16, by have h : (y 2).val < 64 := (y 2).isLt; omega⟩ (y 1) ⟨(y 2).val % 16, Nat.mod_lt _ (by decide)⟩

theorem groupScore_congr (A : (⟨2, ![256, 128]⟩ : Shape).Idx → EReal) (B : (⟨3, ![64, 256, 128]⟩ : Shape).Idx → EReal)
    {k k' : Fin 4} {r r' : Fin 8} {c c' : Fin 16} (hk : k.val = k'.val) (hr : r.val = r'.val) (hc : c.val = c'.val) :
    groupScore A B k r c = groupScore A B k' r' c' := by
  obtain rfl := Fin.ext hk; obtain rfl := Fin.ext hr; obtain rfl := Fin.ext hc; rfl

/-- The four stored pieces are the four column groups of `blockScore`. -/
theorem scoreBlock_eq (x0 : Vec Ideal S8x32x128 .f32) (x1 : Vec Ideal S1x64x256x128 .f32) (x2 : Vec Ideal S1x64x256 .i32) (y : S1x8x64.Idx) :
    scoreBlock (F := Ideal) x0 x1 x2 y = blockScore (k0_pay2 (F := Ideal) x0) (k0_pay3 (F := Ideal) x1 x2) y := by
  unfold scoreBlock
  simp only [View.ld_unit_zero (S := S8x32x128) hz3, View.ld_unit_zero (S := S1x64x256x128) hz4, View.ld_unit_zero (S := S1x64x256) hz3]
  refine View.canon_apply_of_pieces (Val := Elt Ideal) (blockScore (k0_pay2 (F := Ideal) x0) (k0_pay3 (F := Ideal) x1 x2)) _ ?_ y (score_cover _ _ _ _ y)
  have key : ∀ x : S1x8x16.Idx, ∃ (r : Fin 8) (cc : Fin 16), x = ix3 (0 : Fin 1) r cc := fun x =>
    ⟨x 1, x 2, (eq_ix3 x).trans (congrArg (fun u : Fin 1 => ix3 u (x 1) (x 2)) (Subsingleton.elim (α := Fin 1) (x 0) 0))⟩
  intro p hp x
  simp only [List.mem_cons, List.mem_nil_iff, or_false] at hp
  rcases hp with rfl | rfl | rfl | rfl
  · obtain ⟨r, cc, rfl⟩ := key x
    show k0_pay1 (F := Ideal) (k0_pay8 (F := Ideal) (k0_pay2 (F := Ideal) x0) (k0_pay3 (F := Ideal) x1 x2)) (ix3 0 r cc) = _
    rw [Scores.pay1_apply, Scores.pay8_apply]
    exact groupScore_congr _ _ (by show 3 = (48 + 1 * cc.val) / 16; omega) (by show r.val = 0 + 1 * r.val; omega) (by show cc.val = (48 + 1 * cc.val) % 16; omega)
  · obtain ⟨r, cc, rfl⟩ := key x
    show k0_pay7 (F := Ideal) (k0_pay2 (F := Ideal) x0) (k0_pay3 (F := Ideal) x1 x2) (ix3 0 r cc) = _
    rw [Scores.pay7_apply]
    exact groupScore_congr _ _ (by show 2 = (32 + 1 * cc.val) / 16; omega) (by show r.val = 0 + 1 * r.val; omega) (by show cc.val = (32 + 1 * cc.val) % 16; omega)
  · obtain ⟨r, cc, rfl⟩ := key x
    show k0_pay6 (F := Ideal) (k0_pay2 (F := Ideal) x0) (k0_pay3 (F := Ideal) x1 x2) (ix3 0 r cc) = _
    rw [Scores.pay6_apply]
    exact groupScore_congr _ _ (by show 1 = (16 + 1 * cc.val) / 16; omega) (by show r.val = 0 + 1 * r.val; omega) (by show cc.val = (16 + 1 * cc.val) % 16; omega)
  · obtain ⟨r, cc, rfl⟩ := key x
    show k0_pay5 (F := Ideal) (k0_pay4 (F := Ideal) x0 x1 x2) (ix3 0 r cc) = _
    rw [Scores.pay5_apply, Scores.pay4_apply]
    exact groupScore_congr _ _ (by show 0 = (0 + 1 * cc.val) / 16; omega) (by show r.val = 0 + 1 * r.val; omega) (by show cc.val = (0 + 1 * cc.val) % 16; omega)

/-- What point t writes back is block t of the score function of the three argument arrays. -/
theorem flushed_eq (c : Dev nD) (t : Fin cfg0.N) :
    (dats m 0 c).flushed 3 t = ((cfg0.win 3).blk t).view.read (Elt Ideal)
      (S (m ((c : Thread nD τ).loc main_arg0)) (m ((c : Thread nD τ).loc main_arg1)) (m ((c : Thread nD τ).loc main_arg2))) := by
  show (cfg0.win 3).cut (grid0.coords t) ((dats m 0 c).after 3 t) = _
  rw [after_score]
  funext y
  obtain ⟨u, r, q, rfl⟩ : ∃ (u : Fin 1) (r : Fin 8) (q : Fin 64), y = ix3 u r q := ⟨y 0, y 1, y 2, eq_ix3 y⟩
  obtain rfl : u = 0 := Subsingleton.elim _ _
  show scoreBlock (F := Ideal) (iblk m c 0 t) (iblk m c 1 t) (iblk m c 2 t) (ix3 0 r q)
    = S (m ((c : Thread nD τ).loc main_arg0)) (m ((c : Thread nD τ).loc main_arg1)) (m ((c : Thread nD τ).loc main_arg2)) (((cfg0.win 3).blk t).view.emb (ix3 0 r q))
  rw [score_emb, scoreBlock_eq]
  unfold blockScore S score groupScore
  refine Finset.sum_congr rfl fun l _ => ?_
  refine Finset.fold_congr fun s _ => ?_
  refine Finset.sum_congr rfl fun d _ => ?_
  have hq : (⟨16 * ((q.val) / 16) + q.val % 16, by omega⟩ : Fin 64) = q := Fin.ext (by show 16 * (q.val / 16) + q.val % 16 = q.val; omega)
  congr 1
  · rw [Normalize.pay2_apply]
    unfold qHat qRow
    refine congrArg (fun v => unitAt v d) (funext fun d' => ?_)
    exact q_block m c t r l d'
  · show k0_pay3 (F := Ideal) (iblk m c 1 t) (iblk m c 2 t) (ix3 (⟨16 * (q.val / 16) + q.val % 16, by omega⟩ : Fin 64) s d) = _
    rw [hq, Normalize.pay3_apply]
    unfold dHat dCol
    refine congrArg (fun v => unitAt v s) (funext fun s' => ?_)
    rw [d_block m c t q s' d, mask_block m c t q s']

/-- The score array after the run. -/
theorem final (c : Dev nD) : (dats m 0 c).arrAt 3 cfg0.N
    = S (m ((c : Thread nD τ).loc main_arg0)) (m ((c : Thread nD τ).loc main_arg1)) (m ((c : Thread nD τ).loc main_arg2)) :=
  (dats m 0 c).arrAt_eq_of_cover 3 _ (fun t _ => flushed_eq m c t) score_covered

/-- The run, read: the result buffer ends at the loss of the score function of the argument arrays and of the labels; the
    four argument arrays end as launched. -/
theorem value_run : θ_run defs (onTc (τ := τ) (main (F := Ideal))) ⟨m, fun _ => 0, ρ⟩ fun r => ∀ c : Dev nD,
      r.2.mem ((c.tc : Thread nD τ).loc main_v44)
        = Tail.loss (F := Ideal) (S (m ((c.tc : Thread nD τ).loc main_arg0)) (m ((c.tc : Thread nD τ).loc main_arg1)) (m ((c.tc : Thread nD τ).loc main_arg2)))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v44 (Pipeline.mem_restRefs_of main_v44 (by decide) (by decide))).trans
        ((result_eq m c).trans (congrArg (fun s => Tail.loss (F := Ideal) s (m ((c.tc : Thread nD τ).loc main_arg3))) (final m c))),
     ((h c).1 0).trans (((dats m 0 c).arrAt_in 0 rfl _).trans (A_eq m c 0)),
     ((h c).1 1).trans (((dats m 0 c).arrAt_in 1 rfl _).trans (A_eq m c 1)),
     ((h c).1 2).trans (((dats m 0 c).arrAt_in 2 rfl _).trans (A_eq m c 2)),
     ((h c).2 main_arg3 (Pipeline.mem_restRefs_of main_arg3 (by decide) (by decide))).trans (labels_kept m (dats m) c)⟩) (run_main m ρ)

end Cert.KernelIdeal.Run

end
-- ==== Proof.RefResult.lean ====
/-
  The reference's result is the same loss, of ITS score stage and of the label array: after the score stage the
  reference's operations are, one for one, the operations of `Tail.loss`.
-/
import proofs.«120617_j15152644621119_2_alg».proof.Proof.RefReadP
import proofs.«120617_j15152644621119_2_alg».proof.Proof.Loss

set_option maxRecDepth 65536

noncomputable section

namespace Cert.ReferenceIdeal.Result

open Idealize.ShloMosaic Idealize.SL.Sem

variable {F : FTy → Type} [FloatOps F]

set_option maxHeartbeats 4000000 in
theorem result_eq (x0 : (⟨Cert.ReferenceIdeal.S64x32x128, .f32⟩ : BufTy).Contents (Elt F))
    (x1 : (⟨Cert.ReferenceIdeal.S2x64x256x128, .f32⟩ : BufTy).Contents (Elt F))
    (x2 : (⟨Cert.ReferenceIdeal.S2x64x256, .i32⟩ : BufTy).Contents (Elt F))
    (x3 : (⟨Cert.ReferenceIdeal.S64x2, .f32⟩ : BufTy).Contents (Elt F)) :
    Cert.ReferenceIdeal.ReadP.val_main_v61 (F := F) x0 x1 x2 x3
      = Cert.KernelIdeal.Tail.loss (F := F) (Cert.ReferenceIdeal.ReadP.val_main_v17 (F := F) x0 x1 x2) x3 := by
  rfl

end Cert.ReferenceIdeal.Result

end
-- ==== Proof.RefValue.lean ====
/-
  The reference's score stage is the score function of the three argument arrays: its `dot_general`, maximum and
  sum are the sum over query tokens of the largest inner product, and the operands of the `dot_general` are the
  normalised documents and queries.
-/
import proofs.«120617_j15152644621119_2_alg».proof.Proof.MaxSimSpec
import proofs.«120617_j15152644621119_2_alg».proof.Proof.Normalize
import proofs.«120617_j15152644621119_2_alg».proof.Proof.Scores
import proofs.«120617_j15152644621119_2_alg».proof.Proof.RefReadP
import Idealize.ShloMosaic.Lib.ValueIdx

noncomputable section

namespace Cert.ReferenceIdeal.Result

open Cert.ReferenceIdeal.ReadP Cert.MaxSim Idealize.ShloMosaic Idealize.ShloMosaic.ValueIdx Idealize.SL.Sem

theorem scores_eq (x0 : (⟨Cert.ReferenceIdeal.S64x32x128, .f32⟩ : BufTy).Contents (Elt Ideal))
    (x1 : (⟨Cert.ReferenceIdeal.S2x64x256x128, .f32⟩ : BufTy).Contents (Elt Ideal))
    (x2 : (⟨Cert.ReferenceIdeal.S2x64x256, .i32⟩ : BufTy).Contents (Elt Ideal)) :
    val_main_v17 (F := Ideal) x0 x1 x2 = S x0 x1 x2 := by
  funext i
  obtain ⟨n, bq, bd, rfl⟩ : ∃ (n : Fin 2) (bq bd : Fin 64), i = ix3 n bq bd := ⟨i 0, i 1, i 2, eq_ix3 i⟩
  rw [Cert.MaxSim.Scores.ref_scores]
  show score _ _ n bq bd = score (qHat x0) (dHat x1 x2) n bq bd
  congr 1
  · funext b l d; exact Cert.MaxSim.Normalize.ref_q x0 b l d
  · funext n' b t d; exact Cert.MaxSim.Normalize.ref_d x1 x2 n' b t d

end Cert.ReferenceIdeal.Result

end
-- ==== Proof.lean ====
/-
  The kernel and its reference compute one loss.

  Both programs first form the MaxSim score array S[n, bq, bd] = Σ_l max_t ⟨q̂[bq, l], d̂[n, bd, t]⟩ — queries
  normalised along the features, masked documents normalised along the tokens, every norm floored at 1e-12 — and
  then apply the same host operations to S and to the label array (two log-softmax losses, added). The kernel forms
  S block by block over a 2 × 8 grid, four column groups per block, with the queries first in each product; the
  reference forms it by one contraction with the documents first. On the extended reals the two arrangements are
  one function: the same sums over the same index sets, a fold of max over the same 256 tokens, and commutativity
  of multiplication; no law that fails at an infinity is used, so the precondition is never opened.

  The three runs: each of the two kernels' @main runs to its end through the region and the host operations after it
  and leaves its four argument arrays as launched; the reference's @main is host operations only.
-/
import proofs.«120617_j15152644621119_2_alg».proof.Defs
import proofs.«120617_j15152644621119_2_alg».proof.Proof.Gen.Kernel
import proofs.«120617_j15152644621119_2_alg».proof.Proof.Gen.KernelIdeal
import proofs.«120617_j15152644621119_2_alg».proof.Proof.Gen.ReferenceIdeal
import proofs.«120617_j15152644621119_2_alg».proof.Proof.Gen.Pre_finite_inputs
import proofs.«120617_j15152644621119_2_alg».proof.Proof.KernelRun
import proofs.«120617_j15152644621119_2_alg».proof.Proof.KernelIdealRun
import proofs.«120617_j15152644621119_2_alg».proof.Proof.KernelValue
import proofs.«120617_j15152644621119_2_alg».proof.Proof.RefRunP
import proofs.«120617_j15152644621119_2_alg».proof.Proof.RefReadP
import proofs.«120617_j15152644621119_2_alg».proof.Proof.RefResult
import proofs.«120617_j15152644621119_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Run.frame m ρ

theorem frame_ki : Cert.frame_KernelIdeal := fun m ρ _ => Cert.KernelIdeal.Run.frame m ρ

/-- The reference's run with its result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both results are the loss of the score function of the (agreeing) argument arrays and of the labels. -/
theorem algebraic : Cert.algebraic_KernelIdeal_ReferenceIdeal := by
  intro m ρ m' ρ' _ hagree
  refine ⟨_, Cert.KernelIdeal.Run.value_run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v61_eq, Cert.ReferenceIdeal.Result.result_eq, Cert.ReferenceIdeal.Result.scores_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
